-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S320000 : Shape := ⟨1, ![320000]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000 : S_.BroadcastsInDim S320000 (![] : Fin 0 → Fin S320000.rank)
  reducesTo_S320000_S_d0 : S320000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S10000x128 .f32) (main_arg1 : IVec S2x320000 32) (main_arg2 : FVec F S320000 .f32) (main_arg3 : FVec F S128x64 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S10000x128 : Shape := ⟨2, ![10000, 128]⟩
abbrev S2x320000 : Shape := ⟨2, ![2, 320000]⟩
abbrev S320000 : Shape := ⟨1, ![320000]⟩
abbrev S128x64 : Shape := ⟨2, ![128, 64]⟩
abbrev S64 : Shape := ⟨1, ![64]⟩
abbrev S1x320000 : Shape := ⟨2, ![1, 320000]⟩
abbrev S_ : Shape := ⟨0, ![]⟩
abbrev S320000x1 : Shape := ⟨2, ![320000, 1]⟩
abbrev S320000x128 : Shape := ⟨2, ![320000, 128]⟩
abbrev S10000x64 : Shape := ⟨2, ![10000, 64]⟩
abbrev S1000x128 : Shape := ⟨2, ![1000, 128]⟩
abbrev S1000x64 : Shape := ⟨2, ![1000, 64]⟩
abbrev S1x64 : Shape := ⟨2, ![1, 64]⟩
abbrev S10240x64 : Shape := ⟨2, ![10240, 64]⟩
abbrev S10240x10240 : Shape := ⟨2, ![10240, 10240]⟩
abbrev S1024x64 : Shape := ⟨2, ![1024, 64]⟩
abbrev S1024x1024 : Shape := ⟨2, ![1024, 1024]⟩
abbrev S64x1024 : Shape := ⟨2, ![64, 1024]⟩
abbrev S10000x10000 : Shape := ⟨2, ![10000, 10000]⟩

abbrev nBuf : Space → Nat
  | .hbm => 32
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x128, .f32⟩
  | .hbm, ⟨19, _⟩ => ⟨S320000x1, .f32⟩
  | .hbm, ⟨20, _⟩ => ⟨S320000x128, .f32⟩
  | .hbm, ⟨21, _⟩ => ⟨S320000x128, .f32⟩
  | .hbm, ⟨22, _⟩ => ⟨S_, .f32⟩
  | .hbm, ⟨23, _⟩ => ⟨S10000x128, .f32⟩
  | .hbm, ⟨24, _⟩ => ⟨S320000x1, .i32⟩
  | .hbm, ⟨25, _⟩ => ⟨S10000x128, .f32⟩
  | .hbm, ⟨26, _⟩ => ⟨S10000x64, .f32⟩
  | .hbm, ⟨27, _⟩ => ⟨S_, .i32⟩
  | .hbm, ⟨28, _⟩ => ⟨S_, .f32⟩
  | .hbm, ⟨29, _⟩ => ⟨S10240x64, .f32⟩
  | .hbm, ⟨30, _⟩ => ⟨S10240x10240, .f32⟩
  | .hbm, ⟨31, _⟩ => ⟨S10000x10000, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x64, .f32⟩
  | .local _ .vmem, ⟨5, _⟩ => ⟨S128x64, .f32⟩
  | .local _ .vmem, ⟨6, _⟩ => ⟨S64, .f32⟩
  | .local _ .vmem, ⟨7, _⟩ => ⟨S1000x64, .f32⟩
  | .local _ .vmem, ⟨8, _⟩ => ⟨S1000x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x1024, .f32⟩
  | .local _ .vmem, ⟨14, _⟩ => ⟨S1024x1024, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![10, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  pads_S10000x64_S10240x64_02400_000 : S10000x64.Pads (![0, 0] : Fin 2 → Nat) ![240, 0] ![0, 0] S10240x64
  h_S_ : 0 < S_.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  slices_S10240x10240_S10000x10000_0_0 : S10240x10240.Slices ![0, 0] S10000x10000
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S1000x128_S128x64_S1000x64_1_0_0_1_n_n_wf : DotDims.WF S1000x128 S128x64 S1000x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x64.size a ≤ S10000x64.size a
  hwx0_5 : ∀ i : grid0.Coords, EltTy.bits .f32 = 32 ∨ (Rect.block (s := S10000x64) S1000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S10240x64.size a
  hwx1_0 : ∀ i : grid1.Coords, EltTy.bits .f32 = 32 ∨ (Rect.block (s := S10240x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S10240x64.size a
  hwx1_1 : ∀ i : grid1.Coords, EltTy.bits .f32 = 32 ∨ (Rect.block (s := S10240x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S10240x10240.size a
  hwx1_2 : ∀ i : grid1.Coords, EltTy.bits .f32 = 32 ∨ (Rect.block (s := S10240x10240) S1024x1024.size (cc1_transform_2 i) (hinb1_2 i)).WholeWords (EltTy.packing .f32)

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v16) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S320000 : Shape := ⟨1, ![320000]⟩
abbrev S128x64 : Shape := ⟨2, ![128, 64]⟩
abbrev S64 : Shape := ⟨1, ![64]⟩
abbrev S1x320000 : Shape := ⟨2, ![1, 320000]⟩
abbrev S_ : Shape := ⟨0, ![]⟩
abbrev S320000x1 : Shape := ⟨2, ![320000, 1]⟩
abbrev S320000x128 : Shape := ⟨2, ![320000, 128]⟩
abbrev S10000x64 : Shape := ⟨2, ![10000, 64]⟩
abbrev S1x64 : Shape := ⟨2, ![1, 64]⟩
abbrev S64x10000 : Shape := ⟨2, ![64, 10000]⟩
abbrev S10000x10000 : Shape := ⟨2, ![10000, 10000]⟩

abbrev nBuf : Space → Nat
  | .hbm => 42
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x128, .f32⟩
  | .hbm, ⟨19, _⟩ => ⟨S320000x1, .f32⟩
  | .hbm, ⟨20, _⟩ => ⟨S320000x128, .f32⟩
  | .hbm, ⟨21, _⟩ => ⟨S320000x128, .f32⟩
  | .hbm, ⟨22, _⟩ => ⟨S_, .f32⟩
  | .hbm, ⟨23, _⟩ => ⟨S10000x128, .f32⟩
  | .hbm, ⟨24, _⟩ => ⟨S320000x1, .i32⟩
  | .hbm, ⟨25, _⟩ => ⟨S10000x128, .f32⟩
  | .hbm, ⟨26, _⟩ => ⟨S10000x64, .f32⟩
  | .hbm, ⟨27, _⟩ => ⟨S10000x64, .f32⟩
  | .hbm, ⟨28, _⟩ => ⟨S10000x64, .f32⟩
  | .hbm, ⟨29, _⟩ => ⟨S1x64, .f32⟩
  | .hbm, ⟨30, _⟩ => ⟨S10000x64, .f32⟩
  | .hbm, ⟨31, _⟩ => ⟨S10000x64, .f32⟩
  | .hbm, ⟨32, _⟩ => ⟨S64x10000, .f32⟩
  | .hbm, ⟨33, _⟩ => ⟨S10000x10000, .f32⟩
  | .hbm, ⟨34, _⟩ => ⟨S10000x10000, .f32⟩
  | .hbm, ⟨35, _⟩ => ⟨S10000x10000, .f32⟩
  | .hbm, ⟨36, _⟩ => ⟨S_, .f32⟩
  | .hbm, ⟨37, _⟩ => ⟨S10000x10000, .f32⟩
  | .hbm, ⟨38, _⟩ => ⟨S10000x10000, .f32⟩
  | .hbm, ⟨39, _⟩ => ⟨S_, .f32⟩
  | .hbm, ⟨40, _⟩ => ⟨S10000x10000, .f32⟩
  | .hbm, ⟨41, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S10000x64_S64x10000_1_0 : S10000x64.Transposes [1, 0] S64x10000
  bcast_S_S10000x10000 : S_.BroadcastsInDim S10000x10000 (![] : Fin 0 → Fin S10000x10000.rank)
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x64_S10000x64_1_0_0_1_n_n_wf : DotDims.WF S10000x128 S128x64 S10000x64 [1] [0] [0] [1] [] []
  dot_S10000x64_S64x10000_S10000x10000_1_0_0_1_n_n_wf : DotDims.WF S10000x64 S64x10000 S10000x10000 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.BodiesK.lean ====
/-
  The first kernel region (ten row blocks of z = agg·W_rel + x·W_root + b), stated at the contents `V` the region
  finds in the core's buffers: the block each window shows at a grid point, what the body leaves in the output
  window's staging buffer as one function of the five input blocks, the body's Hoare triple, and the proof data
  the pipelined launch needs (each input buffer holds its block whether or not it was fetched at the point; the
  output buffer holds the body's result).
-/
import proofs.«127993_j74431783239742_1_alg».proof.Proof.Gen.Kernel.Launch
import proofs.«127993_j74431783239742_1_alg».proof.Proof.Gen.Kernel.Skeleton
import proofs.«127993_j74431783239742_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window of the first region holds its block at every point, fetched there or not: when it is not
    fetched its block index has not moved since the point before. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S1000x128 := Rect.unit (s := S1000x128) ![0, 0] S1000x128.size inb_S1000x128_S1000x128_0_0
abbrev r0_w : Rect S128x64 := Rect.unit (s := S128x64) ![0, 0] S128x64.size inb_S128x64_S128x64_0_0
abbrev r0_b : Rect S64 := Rect.unit (s := S64) ![0] S64.size inb_S64_S64_0
abbrev r0_o : Rect S1000x64 := Rect.unit (s := S1000x64) ![0, 0] S1000x64.size inb_S1000x64_S1000x64_0_0

/-- What the body leaves in the output window's staging buffer: its one store, of the arithmetic of the five
    loaded blocks, covering the whole buffer. -/
def out0_5 (x0 x1 : Vec F S1000x128 .f32) (x2 x3 : Vec F S128x64 .f32) (x4 : Vec F S64 .f32) : Vec F S1000x64 .f32 :=
  View.canon [⟨r0_o, k0_pay1 (View.ld x0 r0_x) (View.ld x1 r0_x) (View.ld x2 r0_w) (View.ld x3 r0_w) (View.ld x4 r0_b)⟩]

theorem cover0_5 (p0 : Vec F S1000x64 .f32) (y : S1000x64.Idx) :
    ∃ pc ∈ ([⟨r0_o, p0⟩] : List (View.Piece (Elt F) S1000x64 .f32)), y ∈ pc.1.set :=
  View.cover_of_tiled [⟨r0_o, p0⟩] S1000x64.size (by rfl) y

set_option maxHeartbeats 1000000 in
/-- The body's triple: on whole staging buffers, the five inputs at known contents and the output at anything, the
    body runs to its end leaving the inputs as they were and the output at `out0_5` of them. -/
theorem sound_kernel0 (c : Dev nD) (E : Set ℕ) (i : grid0.Coords)
    (arg1 : Memref sig .tc .vmem S1000x128 .f32) (harg1 : arg1.IsWhole) (arg2 : Memref sig .tc .vmem S1000x128 .f32) (harg2 : arg2.IsWhole)
    (arg3 : Memref sig .tc .vmem S128x64 .f32) (harg3 : arg3.IsWhole) (arg4 : Memref sig .tc .vmem S128x64 .f32) (harg4 : arg4.IsWhole)
    (arg5 : Memref sig .tc .vmem S64 .f32) (harg5 : arg5.IsWhole) (arg6 : Memref sig .tc .vmem S1000x64 .f32) (harg6 : arg6.IsWhole)
    (x0 x1 : Vec F S1000x128 .f32) (x2 x3 : Vec F S128x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__z_kernel i arg1 harg1 arg2 harg2 arg3 harg3 arg4 harg4 arg5 harg5 arg6 harg6) K := by
  simp only [cc0__z_kernel_eq_skeleton]; unfold cc0__z_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The first region's proof data on core `c`: the arrays as the region finds them; after the body each input's
    buffer still at its block, the output's at the body's result on the input blocks; the invariant the scoped
    buffers no window stages and the generator register, untouched; nothing owed; every array at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region0

/-!
  The second kernel region (a 10 × 10 grid of 1024 × 1024 tiles of sigmoid(z·zᵀ) over the row-padded z): both input
  windows read ONE array, the padded z, window 0 by the tile's row block and window 1 by its column block. Nothing
  writes that array during the region, so the core may hold it at half a share through each window; the staging
  buffers are the windows' own and are held whole.
-/
section Region1

variable (V : (c : Dev nD) → (b : Ref sig .tc) → Buf (Elt F) ((c : Thread nD τ).loc b))

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window of the second region holds its block at every point, fetched there or not (window 0 is fetched
    only when the tile's row changes: in between, its block index has not moved). One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S1024x64 := Rect.unit (s := S1024x64) ![0, 0] S1024x64.size inb_S1024x64_S1024x64_0_0
abbrev r1_o : Rect S1024x1024 := Rect.unit (s := S1024x1024) ![0, 0] S1024x1024.size inb_S1024x1024_S1024x1024_0_0

/-- What the body leaves in the output window's staging buffer: its one store, of the arithmetic of the two loaded
    blocks, covering the whole buffer. -/
def out1_2 (x0 x1 : Vec F S1024x64 .f32) : Vec F S1024x1024 .f32 :=
  View.canon [⟨r1_o, k1_pay1 (View.ld x0 r1_x) (View.ld x1 r1_x)⟩]

theorem cover1_2 (p0 : Vec F S1024x1024 .f32) (y : S1024x1024.Idx) :
    ∃ pc ∈ ([⟨r1_o, p0⟩] : List (View.Piece (Elt F) S1024x1024 .f32)), y ∈ pc.1.set :=
  View.cover_of_tiled [⟨r1_o, p0⟩] S1024x1024.size (by rfl) y

set_option maxHeartbeats 1000000 in
/-- The body's triple: on whole staging buffers, the two inputs at known contents and the output at anything, the
    body runs to its end leaving the inputs as they were and the output at `out1_2` of them. -/
theorem sound_kernel1 (c : Dev nD) (E : Set ℕ) (i : grid1.Coords)
    (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole)
    (x0 x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__adj_kernel i arg2 harg2 arg3 harg3 arg4 harg4) K := by
  simp only [cc1__adj_kernel_eq_skeleton]; unfold cc1__adj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The second region's proof data on core `c`: the arrays as the region finds them; after the body each input's
    buffer still at its block, the output's at the body's result on the two input blocks; the invariant the scoped
    buffers no window stages and the generator register, untouched; nothing owed; the one array both input windows
    read held at the left half of the full share through window 0 and at the right half through window 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem share1_0 (c : Dev nD) : (dat1 V c).share 0 = fullShare.left := by unfold Dat.share; rfl
theorem share1_1 (c : Dev nD) : (dat1 V c).share 1 = fullShare.right := by unfold Dat.share; rfl
theorem share1_2 (c : Dev nD) : (dat1 V c).share 2 = fullShare := by unfold Dat.share; rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.RunK.lean ====
/-
  The whole run of the program: its entry function is six items in a row — a stretch of host operations (the
  gather / scatter-add that builds agg), the first kernel region (z), two stretches (a zero constant; the row padding
  of z), the second kernel region (the sigmoid tiles), and the final slice. The core's unscoped buffers are followed
  through the items as one valuation per boundary: a host stretch applies its operations' pure functions, a region
  replaces its output array by what its write-backs leave and changes nothing else. Every weakly fair execution
  terminates with every unscoped buffer at the last valuation.
-/
import proofs.«127993_j74431783239742_1_alg».proof.Proof.Gen.Kernel.Launch
import proofs.«127993_j74431783239742_1_alg».proof.Proof.Gen.Kernel.Skeleton
import proofs.«127993_j74431783239742_1_alg».proof.Proof.Gen.Kernel.Points
import proofs.«127993_j74431783239742_1_alg».proof.Proof.Gen.Kernel.Regions
import proofs.«127993_j74431783239742_1_alg».proof.Proof.BodiesK
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- After the zero constant, and after the row padding (the second region's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev U4 : (c : Dev nD) → (b : Ref sig .tc) → Buf (Elt F) ((c : Thread nD τ).loc b) := fun c b => W4 m ρ c b
/-- After the second region: its output array at what the pipeline leaves, every other buffer as entered. -/
def W5 (c : Dev nD) : Valuation τ sig (Elt F) :=
  Function.update (W4 m ρ c) (Proc.devRef .tc main_v19) ((dat1 (U4 m ρ) c).arrAt 2 cfg1.N)
theorem W5_out (c : Dev nD) : W5 m ρ c (Proc.devRef .tc main_v19) = (dat1 (U4 m ρ) c).arrAt 2 cfg1.N := by
  unfold W5; exact Function.update_self ..
theorem W5_of_ne (c : Dev nD) (b : Ref sig .tc) (hb : b ≠ main_v19) :
    W5 m ρ c (Proc.devRef .tc b) = W4 m ρ c (Proc.devRef .tc b) := by
  unfold W5; exact Function.update_of_ne (StableHlo.devRef_ne_of_ne hb) ..
abbrev U5 : (c : Dev nD) → (b : Ref sig .tc) → Buf (Elt F) ((c : Thread nD τ).loc b) := fun c b => W5 m ρ c b
/-- After the final slice. -/
abbrev W6 : Dev nD → Valuation τ sig (Elt F) := fun c => StableHlo.after hostOps2 (W5 m ρ c)

/-! ## The proof data family and the thread state -/

def pdatsH : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U4 m ρ) c
abbrev 𝒱₀ : Variants := Variants.none
abbrev LH : GSem nD τ sig → Finset Unit := fun _ => ∅
abbrev lvH : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W6 m ρ c) ∗ ∃ r, prngReg c r)

/-! ## The second region's shared array: one buffer's full share dealt to two reading windows and joined again -/

section Shared
variable (V : (c : Dev nD) → (b : Ref sig .tc) → Buf (Elt F) ((c : Thread nD τ).loc b))

/-- The buffers behind the second region's windows are two: the padded z (read through windows 0 and 1) and the
    output. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v18) ↦{fullShare} X main_v18) ∗ (((c : Thread nD τ).loc main_v19) ↦{fullShare} X main_v19)) := by
  unfold Pipeline.arrBufs
  exact bigSep_eq_bigSepL_of_eq [main_v18, main_v19] (by decide) (by decide) _

/-- The pipeline's arrays of the second region, window by window. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v18) ↦{fullShare.left} G 0) ∗ (((c : Thread nD τ).loc main_v18) ↦{fullShare.right} G 1)
          ∗ (((c : Thread nD τ).loc main_v19) ↦{fullShare} G 2)) := by
  unfold Dat.arrays
  rw [bigSep_W1, (arr_whole1 0).set_eq_univ, (arr_whole1 2).set_eq_univ, share1_0, share1_1, share1_2]

/-- ENTRY: the padded z at the full share is the two halves the two windows read it at. -/
theorem arrays1_of_bufs (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H18, H19⟩
  ihave H := (pointsTo_share (PosShare.mem_left_op_right fullShare)).1 $$ H18
  icases H with ⟨Hl, Hr⟩
  isplitl [Hl]; · iexact Hl
  isplitl [Hr]; · iexact Hr
  iexact H19

/-- EXIT: the two halves, still at the entry contents (no one writes an input array), are the full share again; the
    output array holds what the write-backs left. -/
theorem bufs_of_arrays1 (c : Dev nD) (X : (b : Ref sig .tc) → Buf (Elt F) ((c : Thread nD τ).loc b))
    (h18 : X main_v18 = V c main_v18) (h19 : X main_v19 = (dat1 V c).arrAt 2 cfg1.N) :
    ((dat1 V c).arrays ((dat1 V c).arrAt · cfg1.N) : sProp 𝕄)
      ⊢ Pipeline.arrBufs (Ix := Unit) (Name := ℕ) (U := UR sig nD τ) (Lvl := ℕ) spec1 c X := by
  rw [arrBufs1_eq, arrays1_eq, h18, h19, (dat1 V c).arrAt_in 0 rfl, (dat1 V c).arrAt_in 1 rfl]
  iintro ⟨Hl, Hr, H19⟩
  isplitl [Hl Hr]
  · iapply (pointsTo_share (PosShare.mem_left_op_right fullShare)).2
    isplitl [Hl]; · iexact Hl
    iexact Hr
  iexact H19

end Shared

/-! ## The regions as segments -/

set_option backward.isDefEq.respectTransparency.types false in
/-- The first region over the thread state: entered with every unscoped buffer at `W1`, left with them at `W2`. Its
    arrays are split out of the unscoped buffers at entry and put back at the exit contents; the generator register
    goes into the invariant and comes back; nothing is owed; the kernel has no semaphore of its own. -/
def reg0 : Pipeline.RegionSeg (pcfgs (F := F)) adm (pdatsH m ρ) () defs₀ 𝒱₀ LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered with every unscoped buffer at `W4`, left with them at `W5`. The
    padded z, one buffer behind two reading windows, is dealt to them in halves at entry and joined again at exit;
    the output array comes back at what the write-backs left; the rest as in the first region. -/
def reg1 : Pipeline.RegionSeg (pcfgs (F := F)) adm (pdatsH m ρ) () defs₀ 𝒱₀ LH lvH 1 where
  win := winFacts₀1
  block_pos := block_pos1
  stage_whole := stage_whole1
  K := PEmpty
  osem k := k.elim
  ho := Pipeline.OwnSemFacts.none _
  hbody c := (body_obligation1 (U4 m ρ) c).loose
  hwaits := Pipeline.hwaits_of_owed_zero _ _ _ _ LH lvH 1 fun _ _ => rfl
  pre c := iprop(StableHlo.held (c : Thread nD τ) (Pipeline.ucRefs τ sig) (W4 m ρ c) ∗ Rst c)
  post c := iprop(StableHlo.held (c : Thread nD τ) (Pipeline.ucRefs τ sig) (W5 m ρ c) ∗ Rst c)
  X c := iprop(∃ r, prngReg c r)
  Y c := iprop(∃ r, prngReg c r)
  Z c := Pipeline.unscopedRest (Ix := Unit) (Name := ℕ) (U := UR sig nD τ) (Lvl := ℕ) spec1 c (U4 m ρ c)
  hentry c := by
    rw [Pipeline.ownSems0_none]
    have hsplit : (unscopedBufs c (U4 m ρ c) : sProp 𝕄)
        ⊢ iprop((pdatsH m ρ 1 c).arrays ((pdatsH m ρ 1 c).arrAt · 0) ∗ Pipeline.unscopedRest spec1 c (U4 m ρ c)) := by
      rw [Pipeline.unscopedBufs_split₀ cfgs (1 : Fin 2) winFacts₀1.arr_unscoped c (U4 m ρ c)]
      exact sep_mono (arrays1_of_bufs (U4 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdatsH m ρ 1 c).arrays ((pdatsH m ρ 1 c).arrAt · cfg1.N) ∗ Pipeline.unscopedRest spec1 c (U4 m ρ c))
        ⊢ (unscopedBufs c (U5 m ρ c) : sProp 𝕄) := by
      rw [Pipeline.unscopedBufs_split₀ cfgs (1 : Fin 2) winFacts₀1.arr_unscoped c (U5 m ρ c)]
      refine sep_mono (bufs_of_arrays1 (U4 m ρ) c (U5 m ρ c) (W5_of_ne m ρ c main_v18 (by decide)) (W5_out m ρ c)) (Entails.of_eq ?_)
      unfold Pipeline.unscopedRest
      exact bigSep_congr fun b hb => by
        rw [show U5 m ρ c b = U4 m ρ c b from W5_of_ne m ρ c b fun e =>
          (Finset.mem_sdiff.mp hb).2 (Finset.mem_image.mpr ⟨2, Finset.mem_univ _, e.symm⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

abbrev segsH : List (Pipeline.Seg (pcfgs (F := F)) adm (pdatsH m ρ) () defs₀ 𝒱₀ LH lvH) :=
  [ .host (hsegH hostOps0 hostOps0_sub hostOps0_fresh (W0 m ρ)),
    .region (reg0 m ρ),
    .host (hsegH hostOps1 hostOps1_sub hostOps1_fresh (W2 m ρ)),
    .host (hsegH hostOps1_1 hostOps1_1_sub hostOps1_1_fresh (W3 m ρ)),
    .region (reg1 m ρ),
    .host (hsegH hostOps2 hostOps2_sub hostOps2_fresh (W5 m ρ)) ]

set_option backward.isDefEq.respectTransparency.types false in
/-- THE RUN: from any memory with zero counters, every weakly fair execution of the entry function on the
    TensorCores terminates, nothing faulting, and every final memory holds every unscoped buffer at the last
    boundary's contents `W6`. -/
theorem run_uc : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdatsH m ρ) () cellOf_inj emb₁ defs₀ 𝒱₀ LH lvH m ρ main (segsH m ρ)
    (fun c Q => by
      rewrite [main_chain c, Pipeline.Seg.run_eq_chain,
        show (segsH m ρ).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := TnH m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ Rst c) ⊢ iprop(TnH m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.ReadK.lean ====
/-
  The last valuation of the run, read: no item of the entry function writes an argument array, so each ends as launched
  (the frame); the second result z is what the first region's write-backs leave; the array the second region reads is
  z padded by 240 rows of the converted zero; the first result is the leading 10000 × 10000 corner of what the second
  region's write-backs leave; and the first region finds the arguments it reads at their launch contents.
-/
import proofs.«127993_j74431783239742_1_alg».proof.Proof.Gen.Kernel.Launch
import proofs.«127993_j74431783239742_1_alg».proof.Proof.Gen.Kernel.Skeleton
import proofs.«127993_j74431783239742_1_alg».proof.Proof.Gen.Kernel.Points
import proofs.«127993_j74431783239742_1_alg».proof.Proof.Gen.Kernel.Regions
import proofs.«127993_j74431783239742_1_alg».proof.Proof.RunK
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first region changes only its output array: every other buffer leaves it as it entered. -/
theorem W2_keep (c : Dev nD) (r : Ref sig .tc) (h : r ≠ main_v17) :
    W2 m ρ c (Proc.devRef .tc r) = W1 m ρ c (Proc.devRef .tc r) := by
  by_cases hw : ∃ w, Pipeline.arrRef spec0 w = r
  · obtain ⟨w, rfl⟩ := hw
    have hin : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl h
    rw [W2_arr, (dat0 (U1 m ρ) c).arrAt_in w hin, A_eq0]
  · exact W2_of_ne m ρ c r fun w e => hw ⟨w, e⟩

/-- A buffer no host stretch writes and no region outputs holds its launch contents at the end. -/
theorem W6_keep (c : Dev nD) (r : Ref sig .tc) (h0 : r ∉ hostOps0_W) (h1 : r ∉ hostOps1_W) (h11 : r ∉ hostOps1_1_W)
    (h2 : r ∉ hostOps2_W) (h17 : r ≠ main_v17) (h19 : r ≠ main_v19) :
    W6 m ρ c (Proc.devRef .tc r) = m ((c : Thread nD τ).loc r) :=
  calc W6 m ρ c (Proc.devRef .tc r)
    _ = W5 m ρ c (Proc.devRef .tc r) := StableHlo.after_of_writes_sub hostOps2 _ hostOps2_writes h2
    _ = W4 m ρ c (Proc.devRef .tc r) := W5_of_ne m ρ c r h19
    _ = W3 m ρ c (Proc.devRef .tc r) := StableHlo.after_of_writes_sub hostOps1_1 _ hostOps1_1_writes h11
    _ = W2 m ρ c (Proc.devRef .tc r) := StableHlo.after_of_writes_sub hostOps1 _ hostOps1_writes h1
    _ = W1 m ρ c (Proc.devRef .tc r) := W2_keep m ρ c r h17
    _ = W0 m ρ c (Proc.devRef .tc r) := StableHlo.after_of_writes_sub hostOps0 _ hostOps0_writes h0
    _ = m ((c : Thread nD τ).loc r) := rfl

/-- What the first region finds in a buffer the first host stretch does not write: the launch contents. -/
theorem U1_keep (c : Dev nD) (r : Ref sig .tc) (h0 : r ∉ hostOps0_W) : U1 m ρ c r = m ((c : Thread nD τ).loc r) :=
  StableHlo.after_of_writes_sub hostOps0 _ hostOps0_writes h0

/-- The second result: nothing after the first region writes z. -/
theorem W6_z (c : Dev nD) : W6 m ρ c (Proc.devRef .tc main_v17) = (dat0 (U1 m ρ) c).arrAt 5 cfg0.N :=
  calc W6 m ρ c (Proc.devRef .tc main_v17)
    _ = W5 m ρ c (Proc.devRef .tc main_v17) := StableHlo.after_of_writes_sub hostOps2 _ hostOps2_writes (by decide)
    _ = W4 m ρ c (Proc.devRef .tc main_v17) := W5_of_ne m ρ c main_v17 (by decide)
    _ = W3 m ρ c (Proc.devRef .tc main_v17) := StableHlo.after_of_writes_sub hostOps1_1 _ hostOps1_1_writes (by decide)
    _ = W2 m ρ c (Proc.devRef .tc main_v17) := StableHlo.after_of_writes_sub hostOps1 _ hostOps1_writes (by decide)
    _ = (dat0 (U1 m ρ) c).arrAt 5 cfg0.N := W2_arr m ρ c 5

/-- The array both input windows of the second region read: z with 240 rows of the converted integer zero below it. -/
theorem W4_zpad (c : Dev nD) :
    U4 m ρ c main_v18 = pad S10240x64 ![0, 0] ![240, 0] ![0, 0] ((dat0 (U1 m ρ) c).arrAt 5 cfg0.N)
      (sitofp .f32 (constantI S_ 32 0#32)) pads_S10000x64_S10240x64_02400_000 h_S_ := by
  have e : U4 m ρ c main_v18 = pad S10240x64 ![0, 0] ![240, 0] ![0, 0] (W2 m ρ c (Proc.devRef .tc main_v17))
      (sitofp .f32 (constantI S_ 32 0#32)) pads_S10000x64_S10240x64_02400_000 h_S_ := by
    show StableHlo.after hostOps1_1 (StableHlo.after hostOps1 (W2 m ρ c)) (Proc.devRef .tc main_v18) = _
    after_results <;> rfl
  rw [e]
  exact congrArg (fun x => pad S10240x64 ![0, 0] ![240, 0] ![0, 0] x (sitofp .f32 (constantI S_ 32 0#32)) pads_S10000x64_S10240x64_02400_000 h_S_) (W2_arr m ρ c 5)

/-- The first result: the leading corner of what the second region's write-backs leave. -/
theorem W6_adj (c : Dev nD) :
    W6 m ρ c (Proc.devRef .tc main_v20) = extractStridedSlice S10000x10000 ![0, 0] ((dat1 (U4 m ρ) c).arrAt 2 cfg1.N) slices_S10240x10240_S10000x10000_0_0 := by
  have e : W6 m ρ c (Proc.devRef .tc main_v20)
      = extractStridedSlice S10000x10000 ![0, 0] (W5 m ρ c (Proc.devRef .tc main_v19)) slices_S10240x10240_S10000x10000_0_0 := by
    show StableHlo.after hostOps2 (W5 m ρ c) (Proc.devRef .tc main_v20) = _
    after_results <;> rfl
  rw [e]
  exact congrArg (fun x => extractStridedSlice S10000x10000 ![0, 0] x slices_S10240x10240_S10000x10000_0_0) (W5_out m ρ c)

/-- THE FRAME: every weakly fair execution terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_keep m ρ c main_arg0 (by decide) (by decide) (by decide) (by decide) (by decide) (by decide)),
     (h c _ (mem_uc main_arg1 (by decide))).trans (W6_keep m ρ c main_arg1 (by decide) (by decide) (by decide) (by decide) (by decide) (by decide)),
     (h c _ (mem_uc main_arg2 (by decide))).trans (W6_keep m ρ c main_arg2 (by decide) (by decide) (by decide) (by decide) (by decide) (by decide)),
     (h c _ (mem_uc main_arg3 (by decide))).trans (W6_keep m ρ c main_arg3 (by decide) (by decide) (by decide) (by decide) (by decide) (by decide)),
     (h c _ (mem_uc main_arg4 (by decide))).trans (W6_keep m ρ c main_arg4 (by decide) (by decide) (by decide) (by decide) (by decide) (by decide)),
     (h c _ (mem_uc main_arg5 (by decide))).trans (W6_keep m ρ c main_arg5 (by decide) (by decide) (by decide) (by decide) (by decide) (by decide))⟩)
    (run_uc m ρ)

end Cert.Kernel.Hand

end
-- ==== Proof.BodiesI.lean ====
/-
  The first kernel region (ten row blocks of z = agg·W_rel + x·W_root + b), stated at the contents `V` the region
  finds in the core's buffers: the block each window shows at a grid point, what the body leaves in the output
  window's staging buffer as one function of the five input blocks, the body's Hoare triple, and the proof data
  the pipelined launch needs (each input buffer holds its block whether or not it was fetched at the point; the
  output buffer holds the body's result).
-/
import proofs.«127993_j74431783239742_1_alg».proof.Proof.Gen.KernelIdeal.Launch
import proofs.«127993_j74431783239742_1_alg».proof.Proof.Gen.KernelIdeal.Skeleton
import proofs.«127993_j74431783239742_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window of the first region holds its block at every point, fetched there or not: when it is not
    fetched its block index has not moved since the point before. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S1000x128 := Rect.unit (s := S1000x128) ![0, 0] S1000x128.size inb_S1000x128_S1000x128_0_0
abbrev r0_w : Rect S128x64 := Rect.unit (s := S128x64) ![0, 0] S128x64.size inb_S128x64_S128x64_0_0
abbrev r0_b : Rect S64 := Rect.unit (s := S64) ![0] S64.size inb_S64_S64_0
abbrev r0_o : Rect S1000x64 := Rect.unit (s := S1000x64) ![0, 0] S1000x64.size inb_S1000x64_S1000x64_0_0

/-- What the body leaves in the output window's staging buffer: its one store, of the arithmetic of the five
    loaded blocks, covering the whole buffer. -/
def out0_5 (x0 x1 : Vec F S1000x128 .f32) (x2 x3 : Vec F S128x64 .f32) (x4 : Vec F S64 .f32) : Vec F S1000x64 .f32 :=
  View.canon [⟨r0_o, k0_pay1 (View.ld x0 r0_x) (View.ld x1 r0_x) (View.ld x2 r0_w) (View.ld x3 r0_w) (View.ld x4 r0_b)⟩]

theorem cover0_5 (p0 : Vec F S1000x64 .f32) (y : S1000x64.Idx) :
    ∃ pc ∈ ([⟨r0_o, p0⟩] : List (View.Piece (Elt F) S1000x64 .f32)), y ∈ pc.1.set :=
  View.cover_of_tiled [⟨r0_o, p0⟩] S1000x64.size (by rfl) y

set_option maxHeartbeats 1000000 in
/-- The body's triple: on whole staging buffers, the five inputs at known contents and the output at anything, the
    body runs to its end leaving the inputs as they were and the output at `out0_5` of them. -/
theorem sound_kernel0 (c : Dev nD) (E : Set ℕ) (i : grid0.Coords)
    (arg1 : Memref sig .tc .vmem S1000x128 .f32) (harg1 : arg1.IsWhole) (arg2 : Memref sig .tc .vmem S1000x128 .f32) (harg2 : arg2.IsWhole)
    (arg3 : Memref sig .tc .vmem S128x64 .f32) (harg3 : arg3.IsWhole) (arg4 : Memref sig .tc .vmem S128x64 .f32) (harg4 : arg4.IsWhole)
    (arg5 : Memref sig .tc .vmem S64 .f32) (harg5 : arg5.IsWhole) (arg6 : Memref sig .tc .vmem S1000x64 .f32) (harg6 : arg6.IsWhole)
    (x0 x1 : Vec F S1000x128 .f32) (x2 x3 : Vec F S128x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__z_kernel i arg1 harg1 arg2 harg2 arg3 harg3 arg4 harg4 arg5 harg5 arg6 harg6) K := by
  simp only [cc0__z_kernel_eq_skeleton]; unfold cc0__z_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The first region's proof data on core `c`: the arrays as the region finds them; after the body each input's
    buffer still at its block, the output's at the body's result on the input blocks; the invariant the scoped
    buffers no window stages and the generator register, untouched; nothing owed; every array at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region0

/-!
  The second kernel region (a 10 × 10 grid of 1024 × 1024 tiles of sigmoid(z·zᵀ) over the row-padded z): both input
  windows read ONE array, the padded z, window 0 by the tile's row block and window 1 by its column block. Nothing
  writes that array during the region, so the core may hold it at half a share through each window; the staging
  buffers are the windows' own and are held whole.
-/
section Region1

variable (V : (c : Dev nD) → (b : Ref sig .tc) → Buf (Elt F) ((c : Thread nD τ).loc b))

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window of the second region holds its block at every point, fetched there or not (window 0 is fetched
    only when the tile's row changes: in between, its block index has not moved). One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S1024x64 := Rect.unit (s := S1024x64) ![0, 0] S1024x64.size inb_S1024x64_S1024x64_0_0
abbrev r1_o : Rect S1024x1024 := Rect.unit (s := S1024x1024) ![0, 0] S1024x1024.size inb_S1024x1024_S1024x1024_0_0

/-- What the body leaves in the output window's staging buffer: its one store, of the arithmetic of the two loaded
    blocks, covering the whole buffer. -/
def out1_2 (x0 x1 : Vec F S1024x64 .f32) : Vec F S1024x1024 .f32 :=
  View.canon [⟨r1_o, k1_pay1 (View.ld x0 r1_x) (View.ld x1 r1_x)⟩]

theorem cover1_2 (p0 : Vec F S1024x1024 .f32) (y : S1024x1024.Idx) :
    ∃ pc ∈ ([⟨r1_o, p0⟩] : List (View.Piece (Elt F) S1024x1024 .f32)), y ∈ pc.1.set :=
  View.cover_of_tiled [⟨r1_o, p0⟩] S1024x1024.size (by rfl) y

set_option maxHeartbeats 1000000 in
/-- The body's triple: on whole staging buffers, the two inputs at known contents and the output at anything, the
    body runs to its end leaving the inputs as they were and the output at `out1_2` of them. -/
theorem sound_kernel1 (c : Dev nD) (E : Set ℕ) (i : grid1.Coords)
    (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole)
    (x0 x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__adj_kernel i arg2 harg2 arg3 harg3 arg4 harg4) K := by
  simp only [cc1__adj_kernel_eq_skeleton]; unfold cc1__adj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The second region's proof data on core `c`: the arrays as the region finds them; after the body each input's
    buffer still at its block, the output's at the body's result on the two input blocks; the invariant the scoped
    buffers no window stages and the generator register, untouched; nothing owed; the one array both input windows
    read held at the left half of the full share through window 0 and at the right half through window 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem share1_0 (c : Dev nD) : (dat1 V c).share 0 = fullShare.left := by unfold Dat.share; rfl
theorem share1_1 (c : Dev nD) : (dat1 V c).share 1 = fullShare.right := by unfold Dat.share; rfl
theorem share1_2 (c : Dev nD) : (dat1 V c).share 2 = fullShare := by unfold Dat.share; rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.RunI.lean ====
/-
  The whole run of the program: its entry function is six items in a row — a stretch of host operations (the
  gather / scatter-add that builds agg), the first kernel region (z), two stretches (a zero constant; the row padding
  of z), the second kernel region (the sigmoid tiles), and the final slice. The core's unscoped buffers are followed
  through the items as one valuation per boundary: a host stretch applies its operations' pure functions, a region
  replaces its output array by what its write-backs leave and changes nothing else. Every weakly fair execution
  terminates with every unscoped buffer at the last valuation.
-/
import proofs.«127993_j74431783239742_1_alg».proof.Proof.Gen.KernelIdeal.Launch
import proofs.«127993_j74431783239742_1_alg».proof.Proof.Gen.KernelIdeal.Skeleton
import proofs.«127993_j74431783239742_1_alg».proof.Proof.Gen.KernelIdeal.Points
import proofs.«127993_j74431783239742_1_alg».proof.Proof.Gen.KernelIdeal.Regions
import proofs.«127993_j74431783239742_1_alg».proof.Proof.BodiesI
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- After the zero constant, and after the row padding (the second region's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev U4 : (c : Dev nD) → (b : Ref sig .tc) → Buf (Elt F) ((c : Thread nD τ).loc b) := fun c b => W4 m ρ c b
/-- After the second region: its output array at what the pipeline leaves, every other buffer as entered. -/
def W5 (c : Dev nD) : Valuation τ sig (Elt F) :=
  Function.update (W4 m ρ c) (Proc.devRef .tc main_v19) ((dat1 (U4 m ρ) c).arrAt 2 cfg1.N)
theorem W5_out (c : Dev nD) : W5 m ρ c (Proc.devRef .tc main_v19) = (dat1 (U4 m ρ) c).arrAt 2 cfg1.N := by
  unfold W5; exact Function.update_self ..
theorem W5_of_ne (c : Dev nD) (b : Ref sig .tc) (hb : b ≠ main_v19) :
    W5 m ρ c (Proc.devRef .tc b) = W4 m ρ c (Proc.devRef .tc b) := by
  unfold W5; exact Function.update_of_ne (StableHlo.devRef_ne_of_ne hb) ..
abbrev U5 : (c : Dev nD) → (b : Ref sig .tc) → Buf (Elt F) ((c : Thread nD τ).loc b) := fun c b => W5 m ρ c b
/-- After the final slice. -/
abbrev W6 : Dev nD → Valuation τ sig (Elt F) := fun c => StableHlo.after hostOps2 (W5 m ρ c)

/-! ## The proof data family and the thread state -/

def pdatsH : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U4 m ρ) c
abbrev 𝒱₀ : Variants := Variants.none
abbrev LH : GSem nD τ sig → Finset Unit := fun _ => ∅
abbrev lvH : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W6 m ρ c) ∗ ∃ r, prngReg c r)

/-! ## The second region's shared array: one buffer's full share dealt to two reading windows and joined again -/

section Shared
variable (V : (c : Dev nD) → (b : Ref sig .tc) → Buf (Elt F) ((c : Thread nD τ).loc b))

/-- The buffers behind the second region's windows are two: the padded z (read through windows 0 and 1) and the
    output. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v18) ↦{fullShare} X main_v18) ∗ (((c : Thread nD τ).loc main_v19) ↦{fullShare} X main_v19)) := by
  unfold Pipeline.arrBufs
  exact bigSep_eq_bigSepL_of_eq [main_v18, main_v19] (by decide) (by decide) _

/-- The pipeline's arrays of the second region, window by window. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v18) ↦{fullShare.left} G 0) ∗ (((c : Thread nD τ).loc main_v18) ↦{fullShare.right} G 1)
          ∗ (((c : Thread nD τ).loc main_v19) ↦{fullShare} G 2)) := by
  unfold Dat.arrays
  rw [bigSep_W1, (arr_whole1 0).set_eq_univ, (arr_whole1 2).set_eq_univ, share1_0, share1_1, share1_2]

/-- ENTRY: the padded z at the full share is the two halves the two windows read it at. -/
theorem arrays1_of_bufs (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H18, H19⟩
  ihave H := (pointsTo_share (PosShare.mem_left_op_right fullShare)).1 $$ H18
  icases H with ⟨Hl, Hr⟩
  isplitl [Hl]; · iexact Hl
  isplitl [Hr]; · iexact Hr
  iexact H19

/-- EXIT: the two halves, still at the entry contents (no one writes an input array), are the full share again; the
    output array holds what the write-backs left. -/
theorem bufs_of_arrays1 (c : Dev nD) (X : (b : Ref sig .tc) → Buf (Elt F) ((c : Thread nD τ).loc b))
    (h18 : X main_v18 = V c main_v18) (h19 : X main_v19 = (dat1 V c).arrAt 2 cfg1.N) :
    ((dat1 V c).arrays ((dat1 V c).arrAt · cfg1.N) : sProp 𝕄)
      ⊢ Pipeline.arrBufs (Ix := Unit) (Name := ℕ) (U := UR sig nD τ) (Lvl := ℕ) spec1 c X := by
  rw [arrBufs1_eq, arrays1_eq, h18, h19, (dat1 V c).arrAt_in 0 rfl, (dat1 V c).arrAt_in 1 rfl]
  iintro ⟨Hl, Hr, H19⟩
  isplitl [Hl Hr]
  · iapply (pointsTo_share (PosShare.mem_left_op_right fullShare)).2
    isplitl [Hl]; · iexact Hl
    iexact Hr
  iexact H19

end Shared

/-! ## The regions as segments -/

set_option backward.isDefEq.respectTransparency.types false in
/-- The first region over the thread state: entered with every unscoped buffer at `W1`, left with them at `W2`. Its
    arrays are split out of the unscoped buffers at entry and put back at the exit contents; the generator register
    goes into the invariant and comes back; nothing is owed; the kernel has no semaphore of its own. -/
def reg0 : Pipeline.RegionSeg (pcfgs (F := F)) adm (pdatsH m ρ) () defs₀ 𝒱₀ LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered with every unscoped buffer at `W4`, left with them at `W5`. The
    padded z, one buffer behind two reading windows, is dealt to them in halves at entry and joined again at exit;
    the output array comes back at what the write-backs left; the rest as in the first region. -/
def reg1 : Pipeline.RegionSeg (pcfgs (F := F)) adm (pdatsH m ρ) () defs₀ 𝒱₀ LH lvH 1 where
  win := winFacts₀1
  block_pos := block_pos1
  stage_whole := stage_whole1
  K := PEmpty
  osem k := k.elim
  ho := Pipeline.OwnSemFacts.none _
  hbody c := (body_obligation1 (U4 m ρ) c).loose
  hwaits := Pipeline.hwaits_of_owed_zero _ _ _ _ LH lvH 1 fun _ _ => rfl
  pre c := iprop(StableHlo.held (c : Thread nD τ) (Pipeline.ucRefs τ sig) (W4 m ρ c) ∗ Rst c)
  post c := iprop(StableHlo.held (c : Thread nD τ) (Pipeline.ucRefs τ sig) (W5 m ρ c) ∗ Rst c)
  X c := iprop(∃ r, prngReg c r)
  Y c := iprop(∃ r, prngReg c r)
  Z c := Pipeline.unscopedRest (Ix := Unit) (Name := ℕ) (U := UR sig nD τ) (Lvl := ℕ) spec1 c (U4 m ρ c)
  hentry c := by
    rw [Pipeline.ownSems0_none]
    have hsplit : (unscopedBufs c (U4 m ρ c) : sProp 𝕄)
        ⊢ iprop((pdatsH m ρ 1 c).arrays ((pdatsH m ρ 1 c).arrAt · 0) ∗ Pipeline.unscopedRest spec1 c (U4 m ρ c)) := by
      rw [Pipeline.unscopedBufs_split₀ cfgs (1 : Fin 2) winFacts₀1.arr_unscoped c (U4 m ρ c)]
      exact sep_mono (arrays1_of_bufs (U4 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdatsH m ρ 1 c).arrays ((pdatsH m ρ 1 c).arrAt · cfg1.N) ∗ Pipeline.unscopedRest spec1 c (U4 m ρ c))
        ⊢ (unscopedBufs c (U5 m ρ c) : sProp 𝕄) := by
      rw [Pipeline.unscopedBufs_split₀ cfgs (1 : Fin 2) winFacts₀1.arr_unscoped c (U5 m ρ c)]
      refine sep_mono (bufs_of_arrays1 (U4 m ρ) c (U5 m ρ c) (W5_of_ne m ρ c main_v18 (by decide)) (W5_out m ρ c)) (Entails.of_eq ?_)
      unfold Pipeline.unscopedRest
      exact bigSep_congr fun b hb => by
        rw [show U5 m ρ c b = U4 m ρ c b from W5_of_ne m ρ c b fun e =>
          (Finset.mem_sdiff.mp hb).2 (Finset.mem_image.mpr ⟨2, Finset.mem_univ _, e.symm⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

abbrev segsH : List (Pipeline.Seg (pcfgs (F := F)) adm (pdatsH m ρ) () defs₀ 𝒱₀ LH lvH) :=
  [ .host (hsegH hostOps0 hostOps0_sub hostOps0_fresh (W0 m ρ)),
    .region (reg0 m ρ),
    .host (hsegH hostOps1 hostOps1_sub hostOps1_fresh (W2 m ρ)),
    .host (hsegH hostOps1_1 hostOps1_1_sub hostOps1_1_fresh (W3 m ρ)),
    .region (reg1 m ρ),
    .host (hsegH hostOps2 hostOps2_sub hostOps2_fresh (W5 m ρ)) ]

set_option backward.isDefEq.respectTransparency.types false in
/-- THE RUN: from any memory with zero counters, every weakly fair execution of the entry function on the
    TensorCores terminates, nothing faulting, and every final memory holds every unscoped buffer at the last
    boundary's contents `W6`. -/
theorem run_uc : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdatsH m ρ) () cellOf_inj emb₁ defs₀ 𝒱₀ LH lvH m ρ main (segsH m ρ)
    (fun c Q => by
      rewrite [main_chain c, Pipeline.Seg.run_eq_chain,
        show (segsH m ρ).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := TnH m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ Rst c) ⊢ iprop(TnH m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.ReadI.lean ====
/-
  The last valuation of the run, read: no item of the entry function writes an argument array, so each ends as launched
  (the frame); the second result z is what the first region's write-backs leave; the array the second region reads is
  z padded by 240 rows of the converted zero; the first result is the leading 10000 × 10000 corner of what the second
  region's write-backs leave; and the first region finds the arguments it reads at their launch contents.
-/
import proofs.«127993_j74431783239742_1_alg».proof.Proof.Gen.KernelIdeal.Launch
import proofs.«127993_j74431783239742_1_alg».proof.Proof.Gen.KernelIdeal.Skeleton
import proofs.«127993_j74431783239742_1_alg».proof.Proof.Gen.KernelIdeal.Points
import proofs.«127993_j74431783239742_1_alg».proof.Proof.Gen.KernelIdeal.Regions
import proofs.«127993_j74431783239742_1_alg».proof.Proof.RunI
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first region changes only its output array: every other buffer leaves it as it entered. -/
theorem W2_keep (c : Dev nD) (r : Ref sig .tc) (h : r ≠ main_v17) :
    W2 m ρ c (Proc.devRef .tc r) = W1 m ρ c (Proc.devRef .tc r) := by
  by_cases hw : ∃ w, Pipeline.arrRef spec0 w = r
  · obtain ⟨w, rfl⟩ := hw
    have hin : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl h
    rw [W2_arr, (dat0 (U1 m ρ) c).arrAt_in w hin, A_eq0]
  · exact W2_of_ne m ρ c r fun w e => hw ⟨w, e⟩

/-- A buffer no host stretch writes and no region outputs holds its launch contents at the end. -/
theorem W6_keep (c : Dev nD) (r : Ref sig .tc) (h0 : r ∉ hostOps0_W) (h1 : r ∉ hostOps1_W) (h11 : r ∉ hostOps1_1_W)
    (h2 : r ∉ hostOps2_W) (h17 : r ≠ main_v17) (h19 : r ≠ main_v19) :
    W6 m ρ c (Proc.devRef .tc r) = m ((c : Thread nD τ).loc r) :=
  calc W6 m ρ c (Proc.devRef .tc r)
    _ = W5 m ρ c (Proc.devRef .tc r) := StableHlo.after_of_writes_sub hostOps2 _ hostOps2_writes h2
    _ = W4 m ρ c (Proc.devRef .tc r) := W5_of_ne m ρ c r h19
    _ = W3 m ρ c (Proc.devRef .tc r) := StableHlo.after_of_writes_sub hostOps1_1 _ hostOps1_1_writes h11
    _ = W2 m ρ c (Proc.devRef .tc r) := StableHlo.after_of_writes_sub hostOps1 _ hostOps1_writes h1
    _ = W1 m ρ c (Proc.devRef .tc r) := W2_keep m ρ c r h17
    _ = W0 m ρ c (Proc.devRef .tc r) := StableHlo.after_of_writes_sub hostOps0 _ hostOps0_writes h0
    _ = m ((c : Thread nD τ).loc r) := rfl

/-- What the first region finds in a buffer the first host stretch does not write: the launch contents. -/
theorem U1_keep (c : Dev nD) (r : Ref sig .tc) (h0 : r ∉ hostOps0_W) : U1 m ρ c r = m ((c : Thread nD τ).loc r) :=
  StableHlo.after_of_writes_sub hostOps0 _ hostOps0_writes h0

/-- The second result: nothing after the first region writes z. -/
theorem W6_z (c : Dev nD) : W6 m ρ c (Proc.devRef .tc main_v17) = (dat0 (U1 m ρ) c).arrAt 5 cfg0.N :=
  calc W6 m ρ c (Proc.devRef .tc main_v17)
    _ = W5 m ρ c (Proc.devRef .tc main_v17) := StableHlo.after_of_writes_sub hostOps2 _ hostOps2_writes (by decide)
    _ = W4 m ρ c (Proc.devRef .tc main_v17) := W5_of_ne m ρ c main_v17 (by decide)
    _ = W3 m ρ c (Proc.devRef .tc main_v17) := StableHlo.after_of_writes_sub hostOps1_1 _ hostOps1_1_writes (by decide)
    _ = W2 m ρ c (Proc.devRef .tc main_v17) := StableHlo.after_of_writes_sub hostOps1 _ hostOps1_writes (by decide)
    _ = (dat0 (U1 m ρ) c).arrAt 5 cfg0.N := W2_arr m ρ c 5

/-- The array both input windows of the second region read: z with 240 rows of the converted integer zero below it. -/
theorem W4_zpad (c : Dev nD) :
    U4 m ρ c main_v18 = pad S10240x64 ![0, 0] ![240, 0] ![0, 0] ((dat0 (U1 m ρ) c).arrAt 5 cfg0.N)
      (sitofp .f32 (constantI S_ 32 0#32)) pads_S10000x64_S10240x64_02400_000 h_S_ := by
  have e : U4 m ρ c main_v18 = pad S10240x64 ![0, 0] ![240, 0] ![0, 0] (W2 m ρ c (Proc.devRef .tc main_v17))
      (sitofp .f32 (constantI S_ 32 0#32)) pads_S10000x64_S10240x64_02400_000 h_S_ := by
    show StableHlo.after hostOps1_1 (StableHlo.after hostOps1 (W2 m ρ c)) (Proc.devRef .tc main_v18) = _
    after_results <;> rfl
  rw [e]
  exact congrArg (fun x => pad S10240x64 ![0, 0] ![240, 0] ![0, 0] x (sitofp .f32 (constantI S_ 32 0#32)) pads_S10000x64_S10240x64_02400_000 h_S_) (W2_arr m ρ c 5)

/-- The first result: the leading corner of what the second region's write-backs leave. -/
theorem W6_adj (c : Dev nD) :
    W6 m ρ c (Proc.devRef .tc main_v20) = extractStridedSlice S10000x10000 ![0, 0] ((dat1 (U4 m ρ) c).arrAt 2 cfg1.N) slices_S10240x10240_S10000x10000_0_0 := by
  have e : W6 m ρ c (Proc.devRef .tc main_v20)
      = extractStridedSlice S10000x10000 ![0, 0] (W5 m ρ c (Proc.devRef .tc main_v19)) slices_S10240x10240_S10000x10000_0_0 := by
    show StableHlo.after hostOps2 (W5 m ρ c) (Proc.devRef .tc main_v20) = _
    after_results <;> rfl
  rw [e]
  exact congrArg (fun x => extractStridedSlice S10000x10000 ![0, 0] x slices_S10240x10240_S10000x10000_0_0) (W5_out m ρ c)

/-- THE FRAME: every weakly fair execution terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_keep m ρ c main_arg0 (by decide) (by decide) (by decide) (by decide) (by decide) (by decide)),
     (h c _ (mem_uc main_arg1 (by decide))).trans (W6_keep m ρ c main_arg1 (by decide) (by decide) (by decide) (by decide) (by decide) (by decide)),
     (h c _ (mem_uc main_arg2 (by decide))).trans (W6_keep m ρ c main_arg2 (by decide) (by decide) (by decide) (by decide) (by decide) (by decide)),
     (h c _ (mem_uc main_arg3 (by decide))).trans (W6_keep m ρ c main_arg3 (by decide) (by decide) (by decide) (by decide) (by decide) (by decide)),
     (h c _ (mem_uc main_arg4 (by decide))).trans (W6_keep m ρ c main_arg4 (by decide) (by decide) (by decide) (by decide) (by decide) (by decide)),
     (h c _ (mem_uc main_arg5 (by decide))).trans (W6_keep m ρ c main_arg5 (by decide) (by decide) (by decide) (by decide) (by decide) (by decide))⟩)
    (run_uc m ρ)

end Cert.KernelIdeal.Hand

end
-- ==== Proof.CoverI.lean ====
/-
  From blocks to the array, for the kernel's two regions. The first region's ten grid points each write one block of
  1000 rows of z = agg · W_rel + x · W_root + b; the blocks tile the 10000 rows, so the array ends holding z. The
  second region's 10 × 10 grid points each write one 1024 × 1024 tile of sigmoid(zp · zpᵀ) over the row-padded z; the
  tiles fill the 10240 × 10240 array, so the array ends holding that matrix. What the body computes at one entry of
  a block from the entries of its input blocks is taken as a hypothesis.
-/
import proofs.«127993_j74431783239742_1_alg».proof.Proof.BodiesI
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

/-- The all-zero offsets of a rank-2 rectangle, however they are spelt. -/
theorem zero2 : (![0, 0] : Fin 2 → Nat) = fun _ => 0 := funext fun a => by fin_cases a <;> rfl
/-- The all-zero offsets of a rank-1 rectangle, however they are spelt. -/
theorem zero1 : (![0] : Fin 1 → Nat) = fun _ => 0 := funext fun a => by fin_cases a; rfl

/-! ## The first region: z = agg · W_rel + x · W_root + b -/

/-- `z[i, j] = (∑ₖ agg[i, k] · W_rel[k, j] + ∑ₖ x[i, k] · W_root[k, j]) + b[j]`, as one function of the five arrays. -/
def Gz (agg x : S10000x128.Idx → EReal) (wrel wroot : S128x64.Idx → EReal) (b : S64.Idx → EReal) : S10000x64.Idx → EReal :=
  fun i => ((∑ k : Fin 128, agg (ix2 (i 0) k) * wrel (ix2 k (i 1))) + (∑ k : Fin 128, x (ix2 (i 0) k) * wroot (ix2 k (i 1)))) + b (ix1 (i 1))

/-- `Gz` at row `p`, column `q`. -/
theorem Gz_apply (agg x : S10000x128.Idx → EReal) (wrel wroot : S128x64.Idx → EReal) (b : S64.Idx → EReal) (p : Fin 10000) (q : Fin 64) :
    Gz agg x wrel wroot b (ix2 p q) = ((∑ k : Fin 128, agg (ix2 p k) * wrel (ix2 k q)) + (∑ k : Fin 128, x (ix2 p k) * wroot (ix2 k q))) + b (ix1 q) := rfl

/-- The block indices over the ten grid points: the two row-blocked inputs move with the output's row block, the two
    weight matrices and the bias stay at block zero, and the output's row block is one of the ten. -/
theorem index_facts0 : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (1 : Fin 2) = 0 ∧ win0_5.index t (0 : Fin 2) ≤ 9 :=
  (by decide +kernel : ∀ t : Fin grid0.N, _)

/-- Each of the ten row blocks of z is some grid point's. -/
theorem index_onto0 : ∀ q0 : Fin 10, ∃ t : Fin cfg0.N, win0_5.index t = ![q0.val, 0] :=
  (by decide +kernel : ∀ q0 : Fin 10, ∃ t : Fin grid0.N, win0_5.index t = ![q0.val, 0])

/-- The row of the whole array that row `p` of the block at grid point `t` is: `1000 · (row block) + p`. -/
def zrow (t : Fin cfg0.N) (p : Fin 1000) : Fin 10000 :=
  ⟨win0_5.index t (0 : Fin 2) * 1000 + p.val, by
    have h := (index_facts0 t).2.2.2.2.2.2.2.2.2.2; have hp := p.isLt; omega⟩

/-- Entry `(p, q)` of the output's block at `t` is entry `(zrow t p, q)` of z. -/
theorem emb0_5 (t : Fin cfg0.N) (p : Fin 1000) (q : Fin 64) :
    ((cfg0.win 5).blk t).view.emb (ix2 p q) = ix2 (zrow t p) q := by
  obtain ⟨e0, e1, e2, e3, e4, e5, e6, e7, e8, e9, e10⟩ := index_facts0 t
  funext a; apply Fin.ext
  match a with
  | ⟨0, _⟩ => show win0_5.index t (0 : Fin 2) * 1000 + 1 * p.val = win0_5.index t (0 : Fin 2) * 1000 + p.val; omega
  | ⟨1, _⟩ => show win0_5.index t (1 : Fin 2) * 64 + 1 * q.val = q.val; omega

/-- Entry `(p, k)` of agg's block at `t` is entry `(zrow t p, k)` of agg. -/
theorem emb0_0 (t : Fin cfg0.N) (p : Fin 1000) (k : Fin 128) :
    ((cfg0.win 0).blk t).view.emb (ix2 p k) = ix2 (zrow t p) k := by
  obtain ⟨e0, e1, e2, e3, e4, e5, e6, e7, e8, e9, e10⟩ := index_facts0 t
  funext a; apply Fin.ext
  match a with
  | ⟨0, _⟩ => show win0_0.index t (0 : Fin 2) * 1000 + 1 * p.val = win0_5.index t (0 : Fin 2) * 1000 + p.val; omega
  | ⟨1, _⟩ => show win0_0.index t (1 : Fin 2) * 128 + 1 * k.val = k.val; omega

/-- Entry `(p, k)` of x's block at `t` is entry `(zrow t p, k)` of x. -/
theorem emb0_1 (t : Fin cfg0.N) (p : Fin 1000) (k : Fin 128) :
    ((cfg0.win 1).blk t).view.emb (ix2 p k) = ix2 (zrow t p) k := by
  obtain ⟨e0, e1, e2, e3, e4, e5, e6, e7, e8, e9, e10⟩ := index_facts0 t
  funext a; apply Fin.ext
  match a with
  | ⟨0, _⟩ => show win0_1.index t (0 : Fin 2) * 1000 + 1 * p.val = win0_5.index t (0 : Fin 2) * 1000 + p.val; omega
  | ⟨1, _⟩ => show win0_1.index t (1 : Fin 2) * 128 + 1 * k.val = k.val; omega

/-- W_rel's one block is W_rel. -/
theorem emb0_2 (t : Fin cfg0.N) (k : Fin 128) (q : Fin 64) :
    ((cfg0.win 2).blk t).view.emb (ix2 k q) = ix2 k q := by
  obtain ⟨e0, e1, e2, e3, e4, e5, e6, e7, e8, e9, e10⟩ := index_facts0 t
  funext a; apply Fin.ext
  match a with
  | ⟨0, _⟩ => show win0_2.index t (0 : Fin 2) * 128 + 1 * k.val = k.val; omega
  | ⟨1, _⟩ => show win0_2.index t (1 : Fin 2) * 64 + 1 * q.val = q.val; omega

/-- W_root's one block is W_root. -/
theorem emb0_3 (t : Fin cfg0.N) (k : Fin 128) (q : Fin 64) :
    ((cfg0.win 3).blk t).view.emb (ix2 k q) = ix2 k q := by
  obtain ⟨e0, e1, e2, e3, e4, e5, e6, e7, e8, e9, e10⟩ := index_facts0 t
  funext a; apply Fin.ext
  match a with
  | ⟨0, _⟩ => show win0_3.index t (0 : Fin 2) * 128 + 1 * k.val = k.val; omega
  | ⟨1, _⟩ => show win0_3.index t (1 : Fin 2) * 64 + 1 * q.val = q.val; omega

/-- The bias's one block is the bias. -/
theorem emb0_4 (t : Fin cfg0.N) (q : Fin 64) :
    ((cfg0.win 4).blk t).view.emb (ix1 q) = ix1 q := by
  obtain ⟨e0, e1, e2, e3, e4, e5, e6, e7, e8, e9, e10⟩ := index_facts0 t
  funext a; apply Fin.ext
  match a with
  | ⟨0, _⟩ => show win0_4.index t (0 : Fin 1) * 64 + 1 * q.val = q.val; omega

/-- An index of z is in point `t`'s block iff each coordinate is in the block's range on its axis. -/
theorem mem_blk0_5 (t : Fin cfg0.N) (i : S10000x64.Idx) :
    i ∈ ((cfg0.win 5).blk t).view.set ↔ ∀ a : Fin 2, win0_5.index t a * S1000x64.size a ≤ (i a).val ∧ (i a).val < win0_5.index t a * S1000x64.size a + S1000x64.size a := by
  show i ∈ ((View.whole main_v17).slice (win0_5.rect t)).set ↔ _
  rw [View.set_slice_whole, Rect.mem_set_unit]
  exact Iff.rfl

/-- Every entry `(r, s)` of z is in the block of the grid point whose row block is `r / 1000`, which is written back. -/
theorem z_cover (i : S10000x64.Idx) : ∃ t : Fin cfg0.N, (cfg0.win 5).flush t = true ∧ i ∈ ((cfg0.win 5).blk t).view.set := by
  have hi0 : (i 0).val < 10000 := (i 0).isLt
  have hi1 : (i 1).val < 64 := (i 1).isLt
  obtain ⟨t, ht⟩ := index_onto0 ⟨(i 0).val / 1000, by omega⟩
  have q0 : win0_5.index t (0 : Fin 2) = (i 0).val / 1000 := congrFun ht 0
  have q1 : win0_5.index t (1 : Fin 2) = 0 := congrFun ht 1
  refine ⟨t, flush0_5 t, ?_⟩
  rw [mem_blk0_5]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 64 ≤ (i 1).val ∧ (i 1).val < win0_5.index t (1 : Fin 2) * 64 + 64; omega

section Region0
variable (V : (c : Dev nD) → (b : Ref sig .tc) → Buf (Elt Ideal) ((c : Thread nD τ).loc b))

/-- What grid point `t` writes back is its block of rows of `Gz` of the five arrays as the region finds them: the
    body's entry `(p, q)` is the two 128-term sums over row `p` of its agg and x blocks, which are row `zrow t p` of agg
    and x, against column `q` of the whole W_rel and W_root, plus the bias at `q`. -/
theorem z_flushed_eq (c : Dev nD)
    (hpay : ∀ (v0 v3 : Vec Ideal S1000x128 .f32) (v5 v7 : Vec Ideal S128x64 .f32) (v12 : Vec Ideal S64 .f32) (p : Fin 1000) (q : Fin 64),
        k0_pay1 (F := Ideal) v0 v3 v5 v7 v12 (ix2 p q) = ((∑ k : Fin 128, v0 (ix2 p k) * v5 (ix2 k q)) + (∑ k : Fin 128, v3 (ix2 p k) * v7 (ix2 k q))) + v12 (ix1 q))
    (t : Fin cfg0.N) :
    (dat0 V c).flushed 5 t = ((cfg0.win 5).blk t).view.read (Elt Ideal) (Gz (V c main_v16) (V c main_arg0) (V c main_arg3) (V c main_arg4) (V c main_arg5)) := by
  show (cfg0.win 5).cut (grid0.coords t) ((dat0 V c).after 5 t) = _
  rw [after0_5]
  unfold out0_5
  rw [View.canon_unit_zero zero2]
  simp only [View.ld_unit_zero (S := S1000x128) zero2, View.ld_unit_zero (S := S128x64) zero2, View.ld_unit_zero (S := S64) zero1]
  funext j
  obtain ⟨p, q, rfl⟩ : ∃ (p : Fin 1000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Gz (V c main_v16) (V c main_arg0) (V c main_arg3) (V c main_arg4) (V c main_arg5) (((cfg0.win 5).blk t).view.emb (ix2 p q))
  rw [hpay, emb0_5, Gz_apply]
  have h0 : ∀ k : Fin 128, iblk0 V c 0 t (ix2 p k) = V c main_v16 (ix2 (zrow t p) k) := fun k => by
    show V c main_v16 (((cfg0.win 0).blk t).view.emb (ix2 p k)) = _
    rw [emb0_0]
  have h1 : ∀ k : Fin 128, iblk0 V c 1 t (ix2 p k) = V c main_arg0 (ix2 (zrow t p) k) := fun k => by
    show V c main_arg0 (((cfg0.win 1).blk t).view.emb (ix2 p k)) = _
    rw [emb0_1]
  have h2 : ∀ k : Fin 128, iblk0 V c 2 t (ix2 k q) = V c main_arg3 (ix2 k q) := fun k => by
    show V c main_arg3 (((cfg0.win 2).blk t).view.emb (ix2 k q)) = _
    rw [emb0_2]
  have h3 : ∀ k : Fin 128, iblk0 V c 3 t (ix2 k q) = V c main_arg4 (ix2 k q) := fun k => by
    show V c main_arg4 (((cfg0.win 3).blk t).view.emb (ix2 k q)) = _
    rw [emb0_3]
  have h4 : iblk0 V c 4 t (ix1 q) = V c main_arg5 (ix1 q) := by
    show V c main_arg5 (((cfg0.win 4).blk t).view.emb (ix1 q)) = _
    rw [emb0_4]
  simp only [h0, h1, h2, h3, h4]

/-- After the first region the output array holds `z = agg · W_rel + x · W_root + b` of the arrays the region found:
    every grid point writes back its block of `Gz`, and the ten blocks tile the array. -/
theorem z_final (c : Dev nD)
    (hpay : ∀ (v0 v3 : Vec Ideal S1000x128 .f32) (v5 v7 : Vec Ideal S128x64 .f32) (v12 : Vec Ideal S64 .f32) (p : Fin 1000) (q : Fin 64),
        k0_pay1 (F := Ideal) v0 v3 v5 v7 v12 (ix2 p q) = ((∑ k : Fin 128, v0 (ix2 p k) * v5 (ix2 k q)) + (∑ k : Fin 128, v3 (ix2 p k) * v7 (ix2 k q))) + v12 (ix1 q)) :
    (dat0 V c).arrAt 5 cfg0.N = Gz (V c main_v16) (V c main_arg0) (V c main_arg3) (V c main_arg4) (V c main_arg5) :=
  (dat0 V c).arrAt_eq_of_cover 5 (Gz (V c main_v16) (V c main_arg0) (V c main_arg3) (V c main_arg4) (V c main_arg5))
    (fun t _ => z_flushed_eq V c hpay t) z_cover

end Region0

/-! ## The second region: adj = sigmoid(zp · zpᵀ) over the row-padded z -/

/-- `adj[i, j] = 1 / (1 + exp(-(∑ₖ zp[i, k] · zp[j, k])))`, as one function of the padded z. -/
def Gadj (zp : S10240x64.Idx → EReal) : S10240x10240.Idx → EReal :=
  fun i => Ideal.logistic (∑ k : Fin 64, zp (ix2 (i 0) k) * zp (ix2 (i 1) k))

/-- `Gadj` at row `p`, column `q`. -/
theorem Gadj_apply (zp : S10240x64.Idx → EReal) (p q : Fin 10240) :
    Gadj zp (ix2 p q) = Ideal.logistic (∑ k : Fin 64, zp (ix2 p k) * zp (ix2 q k)) := rfl

/-- The block indices over the hundred grid points: the first input moves with the tile's row block, the second with
    its column block, and both of the tile's block indices are among the ten. -/
theorem index_facts1 : ∀ t : Fin cfg1.N, win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 9 ∧ win1_2.index t (1 : Fin 2) ≤ 9 :=
  (by decide +kernel : ∀ t : Fin grid1.N, _)

/-- Each of the 10 × 10 tiles is some grid point's. -/
theorem index_onto1 : ∀ (q0 q1 : Fin 10), ∃ t : Fin cfg1.N, win1_2.index t = ![q0.val, q1.val] :=
  (by decide +kernel : ∀ (q0 q1 : Fin 10), ∃ t : Fin grid1.N, win1_2.index t = ![q0.val, q1.val])

/-- The row of the whole array that row `p` of the tile at grid point `t` is: `1024 · (row block) + p`. -/
def arow (t : Fin cfg1.N) (p : Fin 1024) : Fin 10240 :=
  ⟨win1_2.index t (0 : Fin 2) * 1024 + p.val, by
    have h := (index_facts1 t).2.2.2.2.1; have hp := p.isLt; omega⟩

/-- The column of the whole array that column `q` of the tile at grid point `t` is: `1024 · (column block) + q`. -/
def acol (t : Fin cfg1.N) (q : Fin 1024) : Fin 10240 :=
  ⟨win1_2.index t (1 : Fin 2) * 1024 + q.val, by
    have h := (index_facts1 t).2.2.2.2.2; have hq := q.isLt; omega⟩

/-- Entry `(p, q)` of the tile at `t` is entry `(arow t p, acol t q)` of the array. -/
theorem emb1_2 (t : Fin cfg1.N) (p q : Fin 1024) :
    ((cfg1.win 2).blk t).view.emb (ix2 p q) = ix2 (arow t p) (acol t q) := by
  funext a; apply Fin.ext
  match a with
  | ⟨0, _⟩ => show win1_2.index t (0 : Fin 2) * 1024 + 1 * p.val = win1_2.index t (0 : Fin 2) * 1024 + p.val; omega
  | ⟨1, _⟩ => show win1_2.index t (1 : Fin 2) * 1024 + 1 * q.val = win1_2.index t (1 : Fin 2) * 1024 + q.val; omega

/-- Entry `(p, k)` of the first input's block at `t` is entry `(arow t p, k)` of the padded z. -/
theorem emb1_0 (t : Fin cfg1.N) (p : Fin 1024) (k : Fin 64) :
    ((cfg1.win 0).blk t).view.emb (ix2 p k) = ix2 (arow t p) k := by
  obtain ⟨e0, e1, e2, e3, e4, e5⟩ := index_facts1 t
  funext a; apply Fin.ext
  match a with
  | ⟨0, _⟩ => show win1_0.index t (0 : Fin 2) * 1024 + 1 * p.val = win1_2.index t (0 : Fin 2) * 1024 + p.val; omega
  | ⟨1, _⟩ => show win1_0.index t (1 : Fin 2) * 64 + 1 * k.val = k.val; omega

/-- Entry `(q, k)` of the second input's block at `t` is entry `(acol t q, k)` of the padded z. -/
theorem emb1_1 (t : Fin cfg1.N) (q : Fin 1024) (k : Fin 64) :
    ((cfg1.win 1).blk t).view.emb (ix2 q k) = ix2 (acol t q) k := by
  obtain ⟨e0, e1, e2, e3, e4, e5⟩ := index_facts1 t
  funext a; apply Fin.ext
  match a with
  | ⟨0, _⟩ => show win1_1.index t (0 : Fin 2) * 1024 + 1 * q.val = win1_2.index t (1 : Fin 2) * 1024 + q.val; omega
  | ⟨1, _⟩ => show win1_1.index t (1 : Fin 2) * 64 + 1 * k.val = k.val; omega

/-- An index of the array is in point `t`'s tile iff each coordinate is in the tile's range on its axis. -/
theorem mem_blk1_2 (t : Fin cfg1.N) (i : S10240x10240.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v19).slice (win1_2.rect t)).set ↔ _
  rw [View.set_slice_whole, Rect.mem_set_unit]
  exact Iff.rfl

/-- Every entry `(r, s)` of the array is in the tile of the grid point with blocks `(r / 1024, s / 1024)`, which is written back. -/
theorem adj_cover (i : S10240x10240.Idx) : ∃ t : Fin cfg1.N, (cfg1.win 2).flush t = true ∧ i ∈ ((cfg1.win 2).blk t).view.set := by
  have hi0 : (i 0).val < 10240 := (i 0).isLt
  have hi1 : (i 1).val < 10240 := (i 1).isLt
  obtain ⟨t, ht⟩ := index_onto1 ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk1_2]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

section Region1
variable (V : (c : Dev nD) → (b : Ref sig .tc) → Buf (Elt Ideal) ((c : Thread nD τ).loc b))

/-- What grid point `t` writes back is its tile of `Gadj` of the padded z as the region finds it: the body's entry
    `(p, q)` is the logistic of the 64-term sum over row `p` of its first block against row `q` of its second, which are
    rows `arow t p` and `acol t q` of the padded z. -/
theorem adj_flushed_eq (c : Dev nD)
    (hpay : ∀ (v0 v3 : Vec Ideal S1024x64 .f32) (p q : Fin 1024),
        k1_pay1 (F := Ideal) v0 v3 (ix2 p q) = Ideal.logistic (∑ k : Fin 64, v0 (ix2 p k) * v3 (ix2 q k)))
    (t : Fin cfg1.N) :
    (dat1 V c).flushed 2 t = ((cfg1.win 2).blk t).view.read (Elt Ideal) (Gadj (V c main_v18)) := by
  show (cfg1.win 2).cut (grid1.coords t) ((dat1 V c).after 2 t) = _
  rw [after1_2]
  unfold out1_2
  rw [View.canon_unit_zero zero2]
  simp only [View.ld_unit_zero (S := S1024x64) zero2]
  funext j
  obtain ⟨p, q, rfl⟩ : ∃ (p : Fin 1024) (q : Fin 1024), j = ix2 p q := ⟨j 0, j 1, eq_ix2 j⟩
  show k1_pay1 (F := Ideal) (iblk1 V c 0 t) (iblk1 V c 1 t) (ix2 p q)
    = Gadj (V c main_v18) (((cfg1.win 2).blk t).view.emb (ix2 p q))
  rw [hpay, emb1_2, Gadj_apply]
  have h0 : ∀ k : Fin 64, iblk1 V c 0 t (ix2 p k) = V c main_v18 (ix2 (arow t p) k) := fun k => by
    show V c main_v18 (((cfg1.win 0).blk t).view.emb (ix2 p k)) = _
    rw [emb1_0]
  have h1 : ∀ k : Fin 64, iblk1 V c 1 t (ix2 q k) = V c main_v18 (ix2 (acol t q) k) := fun k => by
    show V c main_v18 (((cfg1.win 1).blk t).view.emb (ix2 q k)) = _
    rw [emb1_1]
  simp only [h0, h1]

/-- After the second region the output array holds `sigmoid(zp · zpᵀ)` of the padded z the region found: every grid
    point writes back its tile of `Gadj`, and the hundred tiles fill the array. -/
theorem adj_final (c : Dev nD)
    (hpay : ∀ (v0 v3 : Vec Ideal S1024x64 .f32) (p q : Fin 1024),
        k1_pay1 (F := Ideal) v0 v3 (ix2 p q) = Ideal.logistic (∑ k : Fin 64, v0 (ix2 p k) * v3 (ix2 q k))) :
    (dat1 V c).arrAt 2 cfg1.N = Gadj (V c main_v18) :=
  (dat1 V c).arrAt_eq_of_cover 2 (Gadj (V c main_v18)) (fun t _ => adj_flushed_eq V c hpay t) adj_cover

end Region1

end Cert.KernelIdeal.Hand

end
-- ==== Proof.LibMatmulPlain.lean ====
/-
  A plain matrix product read at one entry, on the extended reals.

  For dimension numbers that contract the left operand's second axis with the right operand's first
  (an [M, K] array times a [K, N] array), started from a zero accumulator, entry (p, c) of the product is
  the sum over k of lhs (p, k) * rhs (k, c). The four coordinate facts about the record's operand indices
  are taken as hypotheses, so the lemma serves every record of that form whatever the extents.
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

/-- Entry (p, c) of an [M, K] x [K, N] product into a zero accumulator is the sum over the one contracted
    axis of the products of row p of the left operand with column c of the right one. `hr`, `hs`: the record
    contracts one axis, of extent K; `hl0` ... `hr1`: the record's operand indices at an output index and a
    contraction position are (row, position) and (position, column). -/
theorem matmul_zero_apply {M K N : Nat} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j 0).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j 1).val)
    (lhs : FVec Ideal ⟨2, ![M, K]⟩ φ₁) (rhs : FVec Ideal ⟨2, ![K, N]⟩ φ₂) (p : Fin M) (c : Fin N) :
    FloatOps.matmul D prec lhs rhs (constant (F := Ideal) ⟨2, ![M, N]⟩ .f32 0x00000000#32) (ix2 p c)
      = ∑ k : Fin K, lhs (ix2 p k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Idealize.ShloMosaic.MatmulPlain

end
-- ==== Proof.LibBiasRow.lean ====
/-
  A bias vector spread over the rows of a matrix, read at an entry.

  A linear layer adds a bias of H entries to every row of an n × H matrix. A kernel body writes this as a cast of the
  [H] vector to the one-row matrix [1, H] followed by a broadcast to [n, H]; the host writes it as two
  broadcasts-in-dimension, [H] → [1, H] along axis 1 and [1, H] → [n, H]. Either way entry (p, q) is the bias at q.
  Also here: the host's all-zero array (a zero constant broadcast from rank 0) reads zero at every index.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibBiasRow

open Idealize.ShloMosaic Idealize.ShloMosaic.ValueIdx

variable {α : Type}

/-- Kernel form: a `[H]` vector cast to the row `[1, H]` and broadcast to `[n, H]` reads, at `(p, q)`, the vector at `q`. -/
theorem cast_broadcast_apply {n H : ℕ} (b : (⟨1, ![H]⟩ : Shape).Idx → α) (h1 : (⟨1, ![H]⟩ : Shape).ShapeCasts ⟨2, ![1, H]⟩)
    (h2 : (⟨2, ![1, H]⟩ : Shape).Broadcasts ⟨2, ![n, H]⟩) (p : Fin n) (q : Fin H) :
    broadcastTo ⟨2, ![n, H]⟩ (shapeCast ⟨2, ![1, H]⟩ b h1) h2 (ix2 p q) = b (ix1 q) := by
  rw [broadcastTo_apply _ h2 (ix2 p q) (ix2 (0 : Fin 1) q) (fun a => by
    match a with
    | ⟨0, _⟩ => rfl
    | ⟨1, _⟩ =>
      show q.val = if H = 1 then 0 else q.val
      split_ifs with hH
      · have := q.isLt; omega
      · rfl)]
  refine shapeCast_apply b h1 _ _ ?_
  rw [Shape.rowMajor_val_two, Shape.rowMajor_val_one]
  show q.val = 0 * H + q.val
  rw [Nat.zero_mul, Nat.zero_add]

/-- Host form: a `[H]` vector broadcast in dimension to `[1, H]` (along axis 1) and then to `[n, H]` reads, at
    `(p, q)`, the vector at `q`. -/
theorem bcast_bcast_apply {n H : ℕ} (b : (⟨1, ![H]⟩ : Shape).Idx → α)
    (h1 : (⟨1, ![H]⟩ : Shape).BroadcastsInDim ⟨2, ![1, H]⟩ ![1])
    (h2 : (⟨2, ![1, H]⟩ : Shape).BroadcastsInDim ⟨2, ![n, H]⟩ ![0, 1]) (p : Fin n) (q : Fin H) :
    broadcastInDim ⟨2, ![n, H]⟩ ![0, 1] h2 (broadcastInDim ⟨2, ![1, H]⟩ ![1] h1 b) (ix2 p q) = b (ix1 q) := by
  have hq : q.val = if H = 1 then 0 else q.val := by
    split_ifs with hH
    · have := q.isLt; omega
    · rfl
  rw [broadcastInDim_apply _ h2 _ (ix2 p q) (ix2 (0 : Fin 1) q) (fun a => by
    match a with
    | ⟨0, _⟩ => rfl
    | ⟨1, _⟩ => exact hq)]
  exact broadcastInDim_apply _ h1 b _ (ix1 q) (fun a => by
    match a with
    | ⟨0, _⟩ => exact hq)

/-- The zero constant of rank 0 broadcast to any shape reads zero at every index, on the extended reals. -/
theorem zeros_apply {s : Shape} (h : (⟨0, ![]⟩ : Shape).BroadcastsInDim s ![]) (j : s.Idx) :
    broadcastInDim s ![] h (constant (F := Ideal) ⟨0, ![]⟩ .f32 0x00000000#32) j = 0 := by
  rw [broadcastInDim_apply _ h _ j ix0 (fun a => a.elim0)]
  exact Ideal.ofBits_zero_f32

end Cert.LibBiasRow

end
-- ==== Proof.PayloadI.lean ====
/-
  The two kernel bodies' arithmetic, read at one entry, on the extended reals; and the two host-side layout
  steps around the second body (rows of zeros appended below z, and the top-left corner cut out of the padded adj).

  First body: a block of z = x1 · W1 + x2 · W2 + b. Entry (p, q) is
    ((∑ k, x1 (p, k) * W1 (k, q)) + (∑ k, x2 (p, k) * W2 (k, q))) + b q,
  grouped exactly so: the extended reals do not distribute and their sum is not associative around ±∞, so the
  grouping is the program's own. Second body: a tile of adj = logistic (z_rows · z_colsᵀ). Entry (p, q) is
    logistic (∑ k, zr (p, k) * zc (q, k)).
  A narrowing of the number format is the identity on extended reals, a cast to the same shape is the identity, and
  a product started from the zero accumulator is the plain sum over the contracted axis.
-/
import proofs.«127993_j74431783239742_1_alg».proof.Proof.Gen.KernelIdeal.Skeleton
import proofs.«127993_j74431783239742_1_alg».proof.Proof.LibMatmulPlain
import proofs.«127993_j74431783239742_1_alg».proof.Proof.LibBiasRow
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option synthInstance.maxSize 4096

noncomputable section

open scoped BigOperators

namespace Cert.KernelIdeal.Payload

open Idealize.ShloMosaic Idealize.ShloMosaic.ValueIdx Cert.KernelIdeal Cert.KernelIdeal.Gen

/-! ## The two contractions' operand indices -/

/-- The [1000,128] x [128,64] contraction reads its left operand at (row of the output, position) … -/
theorem dz_l0 (j : S1000x64.Idx) (q : dot_S1000x128_S128x64_S1000x64_1_0_0_1_n_n.contr.Idx) :
    (dot_S1000x128_S128x64_S1000x64_1_0_0_1_n_n.lhsIdx j q (0 : Fin 2)).val = (j 0).val := by
  unfold DotDims.lhsIdx
  rw [dif_neg (show ¬(0 : Fin S1000x128.rank) ∈ dot_S1000x128_S128x64_S1000x64_1_0_0_1_n_n.lhsBatch by decide),
    dif_pos (show (0 : Fin S1000x128.rank) ∈ dot_S1000x128_S128x64_S1000x64_1_0_0_1_n_n.lhsNonContracting by decide)]
  rfl
theorem dz_l1 (j : S1000x64.Idx) (q : dot_S1000x128_S128x64_S1000x64_1_0_0_1_n_n.contr.Idx) :
    (dot_S1000x128_S128x64_S1000x64_1_0_0_1_n_n.lhsIdx j q (1 : Fin 2)).val = (q ⟨0, by decide⟩).val :=
  dot_S1000x128_S128x64_S1000x64_1_0_0_1_n_n.lhsIdx_val_of_single rfl j q
/-- … and its right operand at (position, column of the output). -/
theorem dz_r0 (j : S1000x64.Idx) (q : dot_S1000x128_S128x64_S1000x64_1_0_0_1_n_n.contr.Idx) :
    (dot_S1000x128_S128x64_S1000x64_1_0_0_1_n_n.rhsIdx j q (0 : Fin 2)).val = (q ⟨0, by decide⟩).val :=
  dot_S1000x128_S128x64_S1000x64_1_0_0_1_n_n.rhsIdx_val_of_single rfl j q
theorem dz_r1 (j : S1000x64.Idx) (q : dot_S1000x128_S128x64_S1000x64_1_0_0_1_n_n.contr.Idx) :
    (dot_S1000x128_S128x64_S1000x64_1_0_0_1_n_n.rhsIdx j q (1 : Fin 2)).val = (j 1).val := by
  unfold DotDims.rhsIdx
  rw [dif_neg (show ¬(1 : Fin S128x64.rank) ∈ dot_S1000x128_S128x64_S1000x64_1_0_0_1_n_n.rhsBatch by decide),
    dif_pos (show (1 : Fin S128x64.rank) ∈ dot_S1000x128_S128x64_S1000x64_1_0_0_1_n_n.rhsNonContracting by decide)]
  rfl

/-- The same for the [1024,64] x [64,1024] contraction. -/
theorem da_l0 (j : S1024x1024.Idx) (q : dot_S1024x64_S64x1024_S1024x1024_1_0_0_1_n_n.contr.Idx) :
    (dot_S1024x64_S64x1024_S1024x1024_1_0_0_1_n_n.lhsIdx j q (0 : Fin 2)).val = (j 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl
theorem da_l1 (j : S1024x1024.Idx) (q : dot_S1024x64_S64x1024_S1024x1024_1_0_0_1_n_n.contr.Idx) :
    (dot_S1024x64_S64x1024_S1024x1024_1_0_0_1_n_n.lhsIdx j q (1 : Fin 2)).val = (q ⟨0, by decide⟩).val :=
  dot_S1024x64_S64x1024_S1024x1024_1_0_0_1_n_n.lhsIdx_val_of_single rfl j q
theorem da_r0 (j : S1024x1024.Idx) (q : dot_S1024x64_S64x1024_S1024x1024_1_0_0_1_n_n.contr.Idx) :
    (dot_S1024x64_S64x1024_S1024x1024_1_0_0_1_n_n.rhsIdx j q (0 : Fin 2)).val = (q ⟨0, by decide⟩).val :=
  dot_S1024x64_S64x1024_S1024x1024_1_0_0_1_n_n.rhsIdx_val_of_single rfl j q
theorem da_r1 (j : S1024x1024.Idx) (q : dot_S1024x64_S64x1024_S1024x1024_1_0_0_1_n_n.contr.Idx) :
    (dot_S1024x64_S64x1024_S1024x1024_1_0_0_1_n_n.rhsIdx j q (1 : Fin 2)).val = (j 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-! ## The two products at an entry -/

/-- Entry (p, q) of an [1000,128] x [128,64] product into the zero accumulator: ∑ k, a (p, k) * b (k, q). -/
theorem matmul_z_apply {φ₁ φ₂ : FTy} (a : FVec Ideal S1000x128 φ₁) (b : FVec Ideal S128x64 φ₂) (p : Fin 1000) (q : Fin 64) :
    matmul dot_S1000x128_S128x64_S1000x64_1_0_0_1_n_n none a b (constant (F := Ideal) S1000x64 .f32 0x00000000#32) (ix2 p q)
      = ∑ k : Fin 128, a (ix2 p k) * b (ix2 k q) :=
  MatmulPlain.matmul_zero_apply dot_S1000x128_S128x64_S1000x64_1_0_0_1_n_n none rfl rfl dz_l0 dz_l1 dz_r0 dz_r1 a b p q

/-- Entry (p, q) of an [1024,64] x [64,1024] product into the zero accumulator: ∑ k, a (p, k) * b (k, q). -/
theorem matmul_adj_apply {φ₁ φ₂ : FTy} (a : FVec Ideal S1024x64 φ₁) (b : FVec Ideal S64x1024 φ₂) (p q : Fin 1024) :
    matmul dot_S1024x64_S64x1024_S1024x1024_1_0_0_1_n_n none a b (constant (F := Ideal) S1024x1024 .f32 0x00000000#32) (ix2 p q)
      = ∑ k : Fin 64, a (ix2 p k) * b (ix2 k q) :=
  MatmulPlain.matmul_zero_apply dot_S1024x64_S64x1024_S1024x1024_1_0_0_1_n_n none rfl rfl da_l0 da_l1 da_r0 da_r1 a b p q

/-! ## The first body: a block of z -/

/-- Entry (p, q) of the block of z the first body stores is
    ((∑ k, x1 (p, k) * W1 (k, q)) + (∑ k, x2 (p, k) * W2 (k, q))) + b q:
    the two feature blocks times their weights, summed, plus the bias of column q. -/
theorem pay_z_apply (v0 v3 : Vec Ideal S1000x128 .f32) (v5 v7 : Vec Ideal S128x64 .f32) (v12 : Vec Ideal S64 .f32)
    (p : Fin 1000) (q : Fin 64) :
    k0_pay1 (F := Ideal) v0 v3 v5 v7 v12 (ix2 p q)
      = ((∑ k : Fin 128, v0 (ix2 p k) * v5 (ix2 k q)) + (∑ k : Fin 128, v3 (ix2 p k) * v7 (ix2 k q))) + v12 (ix1 q) := by
  unfold k0_pay1
  rw [shapeCast_self]
  refine (addf_apply _ _ _).trans ?_
  refine congrArg₂ (· + ·) ((addf_apply _ _ _).trans (congrArg₂ (· + ·) ?_ ?_)) ?_
  · exact matmul_z_apply _ _ p q
  · exact matmul_z_apply _ _ p q
  · exact Cert.LibBiasRow.cast_broadcast_apply v12 shapeCasts_S64_S1x64 broadcasts_S1x64_S1000x64 p q

/-! ## The second body: a tile of adj -/

/-- Entry (p, q) of the tile of adj the second body stores is logistic (∑ k, zr (p, k) * zc (q, k)):
    the logistic function of the inner product of row p of the row block with row q of the column block. -/
theorem pay_adj_apply (v0 v3 : Vec Ideal S1024x64 .f32) (p q : Fin 1024) :
    k1_pay1 (F := Ideal) v0 v3 (ix2 p q) = Ideal.logistic (∑ k : Fin 64, v0 (ix2 p k) * v3 (ix2 q k)) := by
  unfold k1_pay1
  dsimp only
  rw [shapeCast_self, shapeCast_self]
  show Ideal.logistic _ = _
  refine congrArg Ideal.logistic ((matmul_adj_apply _ _ p q).trans (Finset.sum_congr rfl fun k _ => ?_))
  refine congrArg (v0 (ix2 p k) * ·) ?_
  exact transpose_apply [1, 0] _ transposes_S1024x64_p1_0_S64x1024 (ix2 k q) (ix2 q k) (fun b => by
    match b with
    | ⟨0, _⟩ => rfl
    | ⟨1, _⟩ => rfl)

/-! ## The host's layout steps around the second kernel -/

/-- z with 240 rows of padding appended below reads, on a row below 10000, z at that row. -/
theorem pad_rows_apply {F : FTy → Type} [FloatOps F] (x : FVec F S10000x64 .f32) (v : FVec F S_ .f32) (i : Fin 10240) (k : Fin 64)
    (hi : i.val < 10000) :
    pad S10240x64 ![0, 0] ![240, 0] ![0, 0] x v pads_S10000x64_S10240x64_02400_000 h_S_ (ix2 i k) = x (ix2 ⟨i.val, hi⟩ k) :=
  pad_apply_of_inside ![0, 0] ![240, 0] ![0, 0] x v pads_S10000x64_S10240x64_02400_000 h_S_ (ix2 i k) (ix2 ⟨i.val, hi⟩ k)
    (fun a => by
      match a with
      | ⟨0, _⟩ => show i.val = 0 + i.val * (0 + 1); omega
      | ⟨1, _⟩ => show k.val = 0 + k.val * (0 + 1); omega)

/-- The top-left [10000,10000] corner of the padded [10240,10240] adj reads, at (i, j), the padded adj at (i, j). -/
theorem slice_apply {F : FTy → Type} [FloatOps F] (y : FVec F S10240x10240 .f32) (i j : Fin 10000) :
    extractStridedSlice S10000x10000 ![0, 0] y slices_S10240x10240_S10000x10000_0_0 (ix2 i j)
      = y (ix2 ⟨i.val, by have := i.isLt; omega⟩ ⟨j.val, by have := j.isLt; omega⟩) :=
  extractStridedSlice_apply ![0, 0] y slices_S10240x10240_S10000x10000_0_0 (ix2 i j) _ (fun a => by
    match a with
    | ⟨0, _⟩ => show i.val = 0 + i.val; omega
    | ⟨1, _⟩ => show j.val = 0 + j.val; omega)

end Cert.KernelIdeal.Payload

end
-- ==== Proof.RefValue.lean ====
/-
  The reference program's two results as functions of its arguments, read entry by entry.
-/
import proofs.«127993_j74431783239742_1_alg».proof.Proof.Gen.ReferenceIdeal.Run
import proofs.«127993_j74431783239742_1_alg».proof.Proof.Gen.ReferenceIdeal.Read

noncomputable section

namespace Cert.ReferenceIdeal.RefValue

open Idealize.ShloMosaic Idealize.ShloMosaic.ValueIdx Cert.ReferenceIdeal Cert.ReferenceIdeal.Read
open scoped BigOperators

/-- The single-precision pattern `0x3F800000` denotes the number one. -/
theorem ofBits_one : Ideal.ofBits .f32 0x3F800000#32 = 1 := by
  simp [Ideal.ofBits, Ideal.ieee, -EReal.coe_mul]; norm_num

/-! ### Where each stage reads its operands, in coordinates -/

/-- Entry `(i, j)` of `agg · W_rel` reads row `i` of `agg` at column `k`. -/
theorem lidx17 (i : Fin 10000) (j : Fin 64) (k : Fin 128) : lidx_main_v17 (ix2 i j) k = ix2 i k :=
  funext fun a => Fin.ext (by match a with | ⟨0, _⟩ => rfl | ⟨1, _⟩ => rfl)
/-- Entry `(i, j)` of `agg · W_rel` reads column `j` of `W_rel` at row `k`. -/
theorem ridx17 (i : Fin 10000) (j : Fin 64) (k : Fin 128) : ridx_main_v17 (ix2 i j) k = ix2 k j :=
  funext fun a => Fin.ext (by match a with | ⟨0, _⟩ => rfl | ⟨1, _⟩ => rfl)
/-- Entry `(i, j)` of `x · W_root` reads row `i` of `x` at column `k`. -/
theorem lidx18 (i : Fin 10000) (j : Fin 64) (k : Fin 128) : lidx_main_v18 (ix2 i j) k = ix2 i k :=
  funext fun a => Fin.ext (by match a with | ⟨0, _⟩ => rfl | ⟨1, _⟩ => rfl)
/-- Entry `(i, j)` of `x · W_root` reads column `j` of `W_root` at row `k`. -/
theorem ridx18 (i : Fin 10000) (j : Fin 64) (k : Fin 128) : ridx_main_v18 (ix2 i j) k = ix2 k j :=
  funext fun a => Fin.ext (by match a with | ⟨0, _⟩ => rfl | ⟨1, _⟩ => rfl)
/-- Entry `(i, j)` of the bias spread over the rows reads the bias at `j`. -/
theorem idx2021 (i : Fin 10000) (j : Fin 64) : idx_main_v20 (idx_main_v21 (ix2 i j)) = ix1 j :=
  funext fun a => Fin.ext (by match a with | ⟨0, _⟩ => rfl)
/-- Entry `(i, j)` of `z · zᵀ` reads row `i` of `z` at column `k`. -/
theorem lidx24 (i j : Fin 10000) (k : Fin 64) : lidx_main_v24 (ix2 i j) k = ix2 i k :=
  funext fun a => Fin.ext (by match a with | ⟨0, _⟩ => rfl | ⟨1, _⟩ => rfl)
/-- Entry `(i, j)` of `z · zᵀ` reads `zᵀ` at `(k, j)`, which is `z` at `(j, k)`. -/
theorem idx23_ridx24 (i j : Fin 10000) (k : Fin 64) : idx_main_v23 (ridx_main_v24 (ix2 i j) k) = ix2 j k :=
  funext fun a => Fin.ext (by match a with | ⟨0, _⟩ => rfl | ⟨1, _⟩ => rfl)

/-- `z = agg · W_rel + x · W_root + b`, entry by entry: `z[i, j] = (∑ₖ agg[i, k] · W_rel[k, j] + ∑ₖ x[i, k] · W_root[k, j]) + b[j]`,
    with `agg` the aggregated neighbour features, kept as one opaque array. -/
theorem z_apply (x0 : (⟨S10000x128, .f32⟩ : BufTy).Contents (Elt Ideal)) (x1 : (⟨S2x320000, .i32⟩ : BufTy).Contents (Elt Ideal))
    (x2 : (⟨S320000, .f32⟩ : BufTy).Contents (Elt Ideal)) (x3 x4 : (⟨S128x64, .f32⟩ : BufTy).Contents (Elt Ideal))
    (x5 : (⟨S64, .f32⟩ : BufTy).Contents (Elt Ideal)) (i : Fin 10000) (j : Fin 64) :
    val_main_v22 (F := Ideal) x0 x1 x2 x3 x4 x5 (ix2 i j)
      = ((∑ k : Fin 128, val_main_v16 (F := Ideal) x0 x1 x2 (ix2 i k) * x3 (ix2 k j))
          + (∑ k : Fin 128, x0 (ix2 i k) * x4 (ix2 k j))) + x5 (ix1 j) := by
  rw [val_main_v22_apply, val_main_v19_apply, val_main_v17_apply, val_main_v18_apply, val_main_v21_apply,
    val_main_v20_apply]
  simp only [lidx17, ridx17, lidx18, ridx18, idx2021, Ideal.addf_def]

/-- `adj = sigmoid(z · zᵀ)`, entry by entry: `adj[i, j] = 1 / (1 + exp(-(∑ₖ z[i, k] · z[j, k])))`. -/
theorem adj_apply (x0 : (⟨S10000x128, .f32⟩ : BufTy).Contents (Elt Ideal)) (x1 : (⟨S2x320000, .i32⟩ : BufTy).Contents (Elt Ideal))
    (x2 : (⟨S320000, .f32⟩ : BufTy).Contents (Elt Ideal)) (x3 x4 : (⟨S128x64, .f32⟩ : BufTy).Contents (Elt Ideal))
    (x5 : (⟨S64, .f32⟩ : BufTy).Contents (Elt Ideal)) (i j : Fin 10000) :
    val_main_v30 (F := Ideal) x0 x1 x2 x3 x4 x5 (ix2 i j)
      = Ideal.logistic (∑ k : Fin 64, val_main_v22 (F := Ideal) x0 x1 x2 x3 x4 x5 (ix2 i k)
          * val_main_v22 (F := Ideal) x0 x1 x2 x3 x4 x5 (ix2 j k)) := by
  rw [val_main_v30_apply, val_main_v29_apply, val_main_v28_apply, val_main_v27_apply, val_main_v26_apply,
    val_main_v25_apply, val_main_v24_apply, val_main_cst_1_apply, val_main_cst_2_apply]
  have hs : (∑ k : Fin 64, val_main_v22 (F := Ideal) x0 x1 x2 x3 x4 x5 (lidx_main_v24 (ix2 i j) k)
        * val_main_v23 (F := Ideal) x0 x1 x2 x3 x4 x5 (ridx_main_v24 (ix2 i j) k))
      = ∑ k : Fin 64, val_main_v22 (F := Ideal) x0 x1 x2 x3 x4 x5 (ix2 i k)
        * val_main_v22 (F := Ideal) x0 x1 x2 x3 x4 x5 (ix2 j k) :=
    Finset.sum_congr rfl fun k _ => by rw [val_main_v23_apply, lidx24, idx23_ridx24]
  rw [hs]
  simp only [Ideal.hostDivf_def, Ideal.hostUnary_exp_def, Ideal.hostNegf_def, Ideal.negf_def, Ideal.addf_def,
    Ideal.ofBits_def, ofBits_one]
  rfl

end Cert.ReferenceIdeal.RefValue

end
-- ==== Proof.Bridge.lean ====
/-
  The two programs compute one pair of functions of the argument arrays, on the extended reals.

  z: entry (i, j) of the kernel's z is read off the row block that holds row i — the sum over k of agg(i,k)·W_rel(k,j)
  plus the sum over k of x(i,k)·W_root(k,j), plus b(j), in that grouping — and the reference's z is the same two sums and
  the same bias in the same grouping; agg itself is one and the same chain of host operations (a gather, a product and
  a scatter-add) in both programs and is never opened. No law beyond rewriting equal terms is used, so no finiteness.

  adj: entry (i, j), i, j < 10000, of the kernel's result is the sigmoid of the sum over k of zp(i,k)·zp(j,k), where zp
  is z with 240 padding rows below; rows i, j < 10000 of zp are rows of z, so this is the sigmoid of the sum over k of
  z(i,k)·z(j,k) — the reference's entry, its transposed right operand read back and its quotient 1 / (1 + e^(-s))
  being the sigmoid by definition on the extended reals.
-/
import proofs.«127993_j74431783239742_1_alg».proof.Proof.ReadI
import proofs.«127993_j74431783239742_1_alg».proof.Proof.CoverI
import proofs.«127993_j74431783239742_1_alg».proof.Proof.PayloadI
import proofs.«127993_j74431783239742_1_alg».proof.Proof.RefValue

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (ρ : Dev nD → PrngReg) (c : Dev nD)

/-- The aggregated messages the first kernel region finds are the reference's stage of the same three arguments:
    the two programs build them by the same host operations. -/
theorem agg_eq : U1 m ρ c main_v16
    = Cert.ReferenceIdeal.Read.val_main_v16 (F := Ideal) (m ((c : Thread nD τ).loc main_arg0)) (m ((c : Thread nD τ).loc main_arg1)) (m ((c : Thread nD τ).loc main_arg2)) := by
  show StableHlo.after hostOps0 (W0 m ρ c) (Proc.devRef .tc main_v16) = _
  after_results
  rfl

/-- What the first region's write-backs leave is the reference's z. -/
theorem z_eq : (dat0 (U1 m ρ) c).arrAt 5 cfg0.N
    = Cert.ReferenceIdeal.Read.val_main_v22 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [z_final (U1 m ρ) c Cert.KernelIdeal.Payload.pay_z_apply, agg_eq, U1_keep m ρ c main_arg0 (by decide), U1_keep m ρ c main_arg3 (by decide),
    U1_keep m ρ c main_arg4 (by decide), U1_keep m ρ c main_arg5 (by decide)]
  funext i
  obtain ⟨p, q, rfl⟩ : ∃ (p : Fin 10000) (q : Fin 64), i = ix2 p q := ⟨i 0, i 1, eq_ix2 i⟩
  rw [Gz_apply, Cert.ReferenceIdeal.RefValue.z_apply]

/-- The kernel's second result is the reference's. -/
theorem kernel_z : W6 m ρ c (Proc.devRef .tc main_v17)
    = Cert.ReferenceIdeal.Read.val_main_v22 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W6_z m ρ c).trans (z_eq m ρ c)

/-- The kernel's first result is the reference's. -/
theorem kernel_adj : W6 m ρ c (Proc.devRef .tc main_v20)
    = Cert.ReferenceIdeal.Read.val_main_v30 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W6_adj, adj_final (U4 m ρ) c Cert.KernelIdeal.Payload.pay_adj_apply, W4_zpad, z_eq]
  funext i
  obtain ⟨p, q, rfl⟩ : ∃ (p q : Fin 10000), i = ix2 p q := ⟨i 0, i 1, eq_ix2 i⟩
  refine (Cert.KernelIdeal.Payload.slice_apply (F := Ideal) _ p q).trans ?_
  rw [Gadj_apply, Cert.ReferenceIdeal.RefValue.adj_apply]
  refine congrArg Ideal.logistic (Finset.sum_congr rfl fun k _ => ?_)
  exact congrArg₂ (· * ·) (Cert.KernelIdeal.Payload.pad_rows_apply (F := Ideal) _ _ _ k p.isLt) (Cert.KernelIdeal.Payload.pad_rows_apply (F := Ideal) _ _ _ k q.isLt)

end Cert.Bridge

end
-- ==== Proof.lean ====
/-
  A two-layer graph decoder: agg = segment-sum of x[src]·w over dst, z = agg·W_rel + x·W_root + b, adj = sigmoid(z·zᵀ);
  results (adj, z). The kernel computes agg on the host exactly as the reference does, z in ten row blocks of a pipelined
  region (two matrix products into zero accumulators, their sum, the bias row), pads z by 240 zero rows, computes
  sigmoid(zp·zpᵀ) in a 10 × 10 grid of 1024 × 1024 tiles of a second pipelined region whose two input windows read the
  one padded array, and slices the result back to 10000 × 10000.

  Frames: the entry function is run item by item (host stretch, region, two host stretches, region, host stretch); each
  region's body is run symbolically once at a generic grid point; the shared array of the second region is held at half
  a share by each reading window. The same text serves the word-level program and its idealization. The reference's
  frame is its run with the results dropped.

  Values, on the extended reals: both programs' z is, entry by entry, the same two sums over k and the same bias, in
  the same grouping; both programs' adj is the sigmoid of the sum over k of z(i,k)·z(j,k) (the padding rows are never
  read below row 10000, and 1 / (1 + e^(-s)) is the sigmoid by definition). No algebraic law beyond rewriting equal
  terms is needed, so the finiteness precondition is not used. The idealization rewrote nothing, so `preserves` is trivial.
-/
import proofs.«127993_j74431783239742_1_alg».proof.Defs
import proofs.«127993_j74431783239742_1_alg».proof.Proof.Gen.Kernel
import proofs.«127993_j74431783239742_1_alg».proof.Proof.Gen.KernelIdeal
import proofs.«127993_j74431783239742_1_alg».proof.Proof.Gen.ReferenceIdeal
import proofs.«127993_j74431783239742_1_alg».proof.Proof.Gen.Pre_finite_inputs
import proofs.«127993_j74431783239742_1_alg».proof.Proof.Gen.ReferenceIdeal.Run
import proofs.«127993_j74431783239742_1_alg».proof.Proof.ReadK
import proofs.«127993_j74431783239742_1_alg».proof.Proof.ReadI
import proofs.«127993_j74431783239742_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates on every weakly fair execution, faults nowhere and leaves its arguments as launched. -/
theorem frame_k : Cert.frame_Kernel := fun m ρ _ => Cert.Kernel.Hand.frame (F := Bits) m ρ

/-- So does its idealization: the same run read on the extended reals. -/
theorem frame_ki : Cert.frame_KernelIdeal := fun m ρ _ => Cert.KernelIdeal.Hand.frame (F := Ideal) m ρ

/-- The reference is host operations only: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the six arguments both programs end with the same adj and the same z, entry by entry on
    the extended reals: the common values are the kernel's own final buffers, which the bridge identifies with the
    reference's stages of the same arguments. -/
theorem algebraic : Cert.algebraic_KernelIdeal_ReferenceIdeal := by
  intro m ρ m' ρ' _ hagree
  refine ⟨fun c => Cert.KernelIdeal.Hand.W6 m ρ c (Proc.devRef .tc Cert.KernelIdeal.main_v20), fun c => Cert.KernelIdeal.Hand.W6 m ρ c (Proc.devRef .tc Cert.KernelIdeal.main_v17), ?_, ?_⟩
  · refine (θ_run Cert.KernelIdeal.defs _ _).mono (fun r h c => ?_) (Cert.KernelIdeal.Hand.run_uc (F := Ideal) m ρ)
    exact ⟨h c _ (Cert.KernelIdeal.Hand.mem_uc Cert.KernelIdeal.main_v20 (by decide)), h c _ (Cert.KernelIdeal.Hand.mem_uc Cert.KernelIdeal.main_v17 (by decide)),
      (h c _ (Cert.KernelIdeal.Hand.mem_uc Cert.KernelIdeal.main_arg0 (by decide))).trans (Cert.KernelIdeal.Hand.W6_keep m ρ c Cert.KernelIdeal.main_arg0 (by decide) (by decide) (by decide) (by decide) (by decide) (by decide)),
      (h c _ (Cert.KernelIdeal.Hand.mem_uc Cert.KernelIdeal.main_arg1 (by decide))).trans (Cert.KernelIdeal.Hand.W6_keep m ρ c Cert.KernelIdeal.main_arg1 (by decide) (by decide) (by decide) (by decide) (by decide) (by decide)),
      (h c _ (Cert.KernelIdeal.Hand.mem_uc Cert.KernelIdeal.main_arg2 (by decide))).trans (Cert.KernelIdeal.Hand.W6_keep m ρ c Cert.KernelIdeal.main_arg2 (by decide) (by decide) (by decide) (by decide) (by decide) (by decide)),
      (h c _ (Cert.KernelIdeal.Hand.mem_uc Cert.KernelIdeal.main_arg3 (by decide))).trans (Cert.KernelIdeal.Hand.W6_keep m ρ c Cert.KernelIdeal.main_arg3 (by decide) (by decide) (by decide) (by decide) (by decide) (by decide)),
      (h c _ (Cert.KernelIdeal.Hand.mem_uc Cert.KernelIdeal.main_arg4 (by decide))).trans (Cert.KernelIdeal.Hand.W6_keep m ρ c Cert.KernelIdeal.main_arg4 (by decide) (by decide) (by decide) (by decide) (by decide) (by decide)),
      (h c _ (Cert.KernelIdeal.Hand.mem_uc Cert.KernelIdeal.main_arg5 (by decide))).trans (Cert.KernelIdeal.Hand.W6_keep m ρ c Cert.KernelIdeal.main_arg5 (by decide) (by decide) (by decide) (by decide) (by decide) (by decide))⟩
  · refine (θ_run Cert.ReferenceIdeal.defs _ _).mono (fun r h c => ?_) (Cert.ReferenceIdeal.Value.run (F := Ideal) m' ρ')
    obtain ⟨h30, h22, hargs⟩ := h c
    obtain ⟨e0, e1, e2, e3, e4, e5⟩ := hagree c
    refine ⟨h30.trans ((Cert.ReferenceIdeal.Read.val_main_v30_eq _ _ _ _ _ _).trans ?_), h22.trans ((Cert.ReferenceIdeal.Read.val_main_v22_eq _ _ _ _ _ _).trans ?_), hargs⟩
    · rw [e0, e1, e2, e3, e4, e5]
      exact (Cert.Bridge.kernel_adj m ρ c).symm
    · rw [e0, e1, e2, e3, e4, e5]
      exact (Cert.Bridge.kernel_z m ρ c).symm

theorem claim : Cert.Claim :=
  ⟨Cert.Kernel.Gen.facts, Cert.KernelIdeal.Gen.facts, Cert.ReferenceIdeal.Gen.facts, Cert.Pre_finite_inputs.Gen.facts, frame_k, frame_ki, frame_ri, preserves, algebraic⟩

end Cert.Proof

end
